-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v39_0)) (v1 : (c : Dev Cert.KernelIdeal.nD) → Buf (Elt Ideal) ((c.tc : Thread Cert.KernelIdeal.nD Cert.KernelIdeal.τ).loc Cert.KernelIdeal.main_v39_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39_0) = v0 c
          ∧ r.2.mem ((c.tc : Thread Cert.KernelIdeal.nD Cert.KernelIdeal.τ).loc Cert.KernelIdeal.main_v39_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_v63) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S128x128 : Shape := ⟨2, ![128, 128]⟩
abbrev S128x3 : Shape := ⟨2, ![128, 3]⟩
abbrev S3 : Shape := ⟨1, ![3]⟩
abbrev S128x8 : Shape := ⟨2, ![128, 8]⟩
abbrev S8 : Shape := ⟨1, ![8]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x3 : S_.BroadcastsInDim S128x3 (![] : Fin 0 → Fin S128x3.rank)
  reducesTo_S128x3_S_d0_1 : S128x3.ReducesTo [0, 1] S_
  bcast_S_S3 : S_.BroadcastsInDim S3 (![] : Fin 0 → Fin S3.rank)
  reducesTo_S3_S_d0 : S3.ReducesTo [0] S_
  bcast_S_S128x8 : S_.BroadcastsInDim S128x8 (![] : Fin 0 → Fin S128x8.rank)
  reducesTo_S128x8_S_d0_1 : S128x8.ReducesTo [0, 1] S_
  bcast_S_S8 : S_.BroadcastsInDim S8 (![] : Fin 0 → Fin S8.rank)
  reducesTo_S8_S_d0 : S8.ReducesTo [0] S_

variable [Facts]

def fn_part3 {F : FTy → Type} [FloatOps F] (main_v48 : IVec S_ 1) (main_v49 : FVec F S8 .f32) (main_v50 : FVec F S8 .f32) : IVec S_ 1 :=
  let main_v51 : IVec S8 1 := cmpf .olt main_v49 main_v50
  let main_c_19 : IVec S_ 1 := constantI S_ 1 1#1
  let main_v52 : IVec S_ 1 := (fun x v => Host.reduce IntOp.andi x v reducesTo_S8_S_d0 h_S_) main_v51 main_c_19
  let main_v53 : IVec S_ 1 := andi main_v48 main_v52
  main_v53

def fn_part2 {F : FTy → Type} [FloatOps F] (main_arg8 : FVec F S128x3 .f32) (main_arg9 : FVec F S3 .f32) (main_arg10 : FVec F S128x8 .f32) (main_arg11 : FVec F S8 .f32) (main_v33 : IVec S_ 1) : IVec S_ 1 :=
  let main_v34 : FVec F S128x3 .f32 := Host.absf main_arg8
  let main_cst_12 : FVec F S_ .f32 := constant S_ .f32 0x7F800000#32
  let main_v35 : FVec F S128x3 .f32 := broadcastInDim S128x3 ![] bcast_S_S128x3 main_cst_12
  let main_v36 : IVec S128x3 1 := cmpf .olt main_v34 main_v35
  let main_c_13 : IVec S_ 1 := constantI S_ 1 1#1
  let main_v37 : IVec S_ 1 := (fun x v => Host.reduce IntOp.andi x v reducesTo_S128x3_S_d0_1 h_S_) main_v36 main_c_13
  let main_v38 : IVec S_ 1 := andi main_v33 main_v37
  let main_v39 : FVec F S3 .f32 := Host.absf main_arg9
  let main_cst_14 : FVec F S_ .f32 := constant S_ .f32 0x7F800000#32
  let main_v40 : FVec F S3 .f32 := broadcastInDim S3 ![] bcast_S_S3 main_cst_14
  let main_v41 : IVec S3 1 := cmpf .olt main_v39 main_v40
  let main_c_15 : IVec S_ 1 := constantI S_ 1 1#1
  let main_v42 : IVec S_ 1 := (fun x v => Host.reduce IntOp.andi x v reducesTo_S3_S_d0 h_S_) main_v41 main_c_15
  let main_v43 : IVec S_ 1 := andi main_v38 main_v42
  let main_v44 : FVec F S128x8 .f32 := Host.absf main_arg10
  let main_cst_16 : FVec F S_ .f32 := constant S_ .f32 0x7F800000#32
  let main_v45 : FVec F S128x8 .f32 := broadcastInDim S128x8 ![] bcast_S_S128x8 main_cst_16
  let main_v46 : IVec S128x8 1 := cmpf .olt main_v44 main_v45
  let main_c_17 : IVec S_ 1 := constantI S_ 1 1#1
  let main_v47 : IVec S_ 1 := (fun x v => Host.reduce IntOp.andi x v reducesTo_S128x8_S_d0_1 h_S_) main_v46 main_c_17
  let main_v48 : IVec S_ 1 := andi main_v43 main_v47
  let main_v49 : FVec F S8 .f32 := Host.absf main_arg11
  let main_cst_18 : FVec F S_ .f32 := constant S_ .f32 0x7F800000#32
  let main_v50 : FVec F S8 .f32 := broadcastInDim S8 ![] bcast_S_S8 main_cst_18
  fn_part3 (F := F) main_v48 main_v49 main_v50

def fn_part1 {F : FTy → Type} [FloatOps F] (main_arg5 : FVec F S128x128 .f32) (main_arg6 : FVec F S128x128 .f32) (main_arg7 : FVec F S128 .f32) (main_arg8 : FVec F S128x3 .f32) (main_arg9 : FVec F S3 .f32) (main_arg10 : FVec F S128x8 .f32) (main_arg11 : FVec F S8 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x64 .f32) (main_arg1 : IVec S2x1600000 32) (main_arg2 : FVec F S64x128 .f32) (main_arg3 : FVec F S64x128 .f32) (main_arg4 : FVec F S128 .f32) (main_arg5 : FVec F S128x128 .f32) (main_arg6 : FVec F S128x128 .f32) (main_arg7 : FVec F S128 .f32) (main_arg8 : FVec F S128x3 .f32) (main_arg9 : FVec F S3 .f32) (main_arg10 : FVec F S128x8 .f32) (main_arg11 : FVec F S8 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64x128 .f32 := Host.absf main_arg3
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_v13 main_v16
-- ==== Kernel.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S128x128 : Shape := ⟨2, ![128, 128]⟩
abbrev S128x3 : Shape := ⟨2, ![128, 3]⟩
abbrev S3 : Shape := ⟨1, ![3]⟩
abbrev S128x8 : Shape := ⟨2, ![128, 8]⟩
abbrev S8 : Shape := ⟨1, ![8]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S100000x1 : Shape := ⟨2, ![100000, 1]⟩
abbrev S100000x128 : Shape := ⟨2, ![100000, 128]⟩
abbrev S5000x64 : Shape := ⟨2, ![5000, 64]⟩
abbrev S5000x128 : Shape := ⟨2, ![5000, 128]⟩
abbrev S1x128 : Shape := ⟨2, ![1, 128]⟩
abbrev S1600000x128 : Shape := ⟨2, ![1600000, 128]⟩
abbrev S100000x3 : Shape := ⟨2, ![100000, 3]⟩
abbrev S100000x8 : Shape := ⟨2, ![100000, 8]⟩
abbrev S5000x3 : Shape := ⟨2, ![5000, 3]⟩
abbrev S5000x8 : Shape := ⟨2, ![5000, 8]⟩
abbrev S1x3 : Shape := ⟨2, ![1, 3]⟩
abbrev S1x8 : Shape := ⟨2, ![1, 8]⟩

abbrev nBuf : Space → Nat
  | .hbm => 63
  | .vmem => 24
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x128, .f32⟩
  | .hbm, ⟨3, _⟩ => ⟨S64x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x3, .f32⟩
  | .hbm, ⟨9, _⟩ => ⟨S3, .f32⟩
  | .hbm, ⟨10, _⟩ => ⟨S128x8, .f32⟩
  | .hbm, ⟨11, _⟩ => ⟨S8, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S_, .f32⟩
  | .hbm, ⟨17, _⟩ => ⟨S1600000, .f32⟩
  | .hbm, ⟨18, _⟩ => ⟨S_, .f32⟩
  | .hbm, ⟨19, _⟩ => ⟨S100000, .f32⟩
  | .hbm, ⟨20, _⟩ => ⟨S1600000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000x64, .f32⟩
  | .hbm, ⟨37, _⟩ => ⟨S_, .f32⟩
  | .hbm, ⟨38, _⟩ => ⟨S100000x64, .f32⟩
  | .hbm, ⟨39, _⟩ => ⟨S1600000x1, .i32⟩
  | .hbm, ⟨40, _⟩ => ⟨S100000x64, .f32⟩
  | .hbm, ⟨41, _⟩ => ⟨S100000x1, .f32⟩
  | .hbm, ⟨42, _⟩ => ⟨S100000x64, .f32⟩
  | .hbm, ⟨43, _⟩ => ⟨S100000x64, .f32⟩
  | .hbm, ⟨44, _⟩ => ⟨S100000x128, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x128, .f32⟩
  | .hbm, ⟨54, _⟩ => ⟨S_, .f32⟩
  | .hbm, ⟨55, _⟩ => ⟨S100000x128, .f32⟩
  | .hbm, ⟨56, _⟩ => ⟨S1600000x1, .i32⟩
  | .hbm, ⟨57, _⟩ => ⟨S100000x128, .f32⟩
  | .hbm, ⟨58, _⟩ => ⟨S100000x1, .f32⟩
  | .hbm, ⟨59, _⟩ => ⟨S100000x128, .f32⟩
  | .hbm, ⟨60, _⟩ => ⟨S100000x128, .f32⟩
  | .hbm, ⟨61, _⟩ => ⟨S100000x3, .f32⟩
  | .hbm, ⟨62, _⟩ => ⟨S100000x8, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x128, .f32⟩
  | .local _ .vmem, ⟨5, _⟩ => ⟨S64x128, .f32⟩
  | .local _ .vmem, ⟨6, _⟩ => ⟨S128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S128, .f32⟩
  | .local _ .vmem, ⟨16, _⟩ => ⟨S128x3, .f32⟩
  | .local _ .vmem, ⟨17, _⟩ => ⟨S3, .f32⟩
  | .local _ .vmem, ⟨18, _⟩ => ⟨S128x8, .f32⟩
  | .local _ .vmem, ⟨19, _⟩ => ⟨S8, .f32⟩
  | .local _ .vmem, ⟨20, _⟩ => ⟨S5000x3, .f32⟩
  | .local _ .vmem, ⟨21, _⟩ => ⟨S5000x3, .f32⟩
  | .local _ .vmem, ⟨22, _⟩ => ⟨S5000x8, .f32⟩
  | .local _ .vmem, ⟨23, _⟩ => ⟨S5000x8, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_c : Ref sig .tc := ⟨.hbm, 28, rfl⟩
abbrev main_v12 : Ref sig .tc := ⟨.hbm, 29, rfl⟩
abbrev main_v13 : Ref sig .tc := ⟨.hbm, 30, rfl⟩
abbrev main_c_3 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_c_5 : Ref sig .tc := ⟨.hbm, 45, rfl⟩
abbrev main_v26 : Ref sig .tc := ⟨.hbm, 46, rfl⟩
abbrev main_v27 : Ref sig .tc := ⟨.hbm, 47, rfl⟩
abbrev main_c_6 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39_0 : Ref sig .tc := ⟨.hbm, 61, rfl⟩
abbrev main_v39_1 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg9_0 : Ref sig .tc := ⟨.vmem, 20, rfl⟩
abbrev cc1_stg9_1 : Ref sig .tc := ⟨.vmem, 21, rfl⟩
abbrev cc1_stg10_0 : Ref sig .tc := ⟨.vmem, 22, rfl⟩
abbrev cc1_stg10_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem8_0 : DmaSem sig := 19
abbrev cc1_sem9_0 : DmaSem sig := 20
abbrev cc1_sem9_1 : DmaSem sig := 21
abbrev cc1_sem10_0 : DmaSem sig := 22
abbrev cc1_sem10_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x3 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S3 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x8 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S8 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S5000x3 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S5000x8 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S128x3_S128x3_0_0 : ∀ a, (![0, 0] : Fin 2 → Nat) a + S128x3.size a ≤ S128x3.size a
  h_S128x3 : 0 < S128x3.numel
  inb_S128x8_S128x8_0_0 : ∀ a, (![0, 0] : Fin 2 → Nat) a + S128x8.size a ≤ S128x8.size a
  h_S128x8 : 0 < S128x8.numel
  inb_S3_S3_0 : ∀ a, (![0] : Fin 1 → Nat) a + S3.size a ≤ S3.size a
  h_S3 : 0 < S3.numel
  shapeCasts_S3_S1x3 : S3.ShapeCasts S1x3
  broadcasts_S1x3_S5000x3 : S1x3.Broadcasts S5000x3
  inb_S8_S8_0 : ∀ a, (![0] : Fin 1 → Nat) a + S8.size a ≤ S8.size a
  h_S8 : 0 < S8.numel
  shapeCasts_S8_S1x8 : S8.ShapeCasts S1x8
  broadcasts_S1x8_S5000x8 : S1x8.Broadcasts S5000x8
  inb_S5000x3_S5000x3_0_0 : ∀ a, (![0, 0] : Fin 2 → Nat) a + S5000x3.size a ≤ S5000x3.size a
  h_S5000x3 : 0 < S5000x3.numel
  inb_S5000x8_S5000x8_0_0 : ∀ a, (![0, 0] : Fin 2 → Nat) a + S5000x8.size a ≤ S5000x8.size a
  h_S5000x8 : 0 < S5000x8.numel
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x128_S5000x128_1_0_0_1_n_n_wf : DotDims.WF S5000x64 S64x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x3_S5000x3_1_0_0_1_n_n_wf : DotDims.WF S5000x128 S128x3 S5000x3 [1] [0] [0] [1] [] []
  dot_S5000x128_S128x8_S5000x8_1_0_0_1_n_n_wf : DotDims.WF S5000x128 S128x8 S5000x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x3.size a ≤ S128x3.size a
  hwx1_5 : ∀ i : grid1.Coords, EltTy.bits .f32 = 32 ∨ (Rect.block (s := S128x3) S128x3.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S3.size a ≤ S3.size a
  hwx1_6 : ∀ i : grid1.Coords, EltTy.bits .f32 = 32 ∨ (Rect.block (s := S3) S3.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x8.size a ≤ S128x8.size a
  hwx1_7 : ∀ i : grid1.Coords, EltTy.bits .f32 = 32 ∨ (Rect.block (s := S128x8) S128x8.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S8.size a ≤ S8.size a
  hwx1_8 : ∀ i : grid1.Coords, EltTy.bits .f32 = 32 ∨ (Rect.block (s := S8) S8.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S5000x3.size a ≤ S100000x3.size a
  hwx1_9 : ∀ i : grid1.Coords, EltTy.bits .f32 = 32 ∨ (Rect.block (s := S100000x3) S5000x3.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S5000x8.size a ≤ S100000x8.size a
  hwx1_10 : ∀ i : grid1.Coords, EltTy.bits .f32 = 32 ∨ (Rect.block (s := S100000x8) S5000x8.size (cc1_transform_10 i) (hinb1_10 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x3_S5000x3_1_0_0_1_n_n : DotDims S5000x128 S128x3 S5000x3 where
  lhsContracting := [1]
  rhsContracting := [0]
  lhsNonContracting := [0]
  rhsNonContracting := [1]
  lhsBatch := []
  rhsBatch := []
  wf := dot_S5000x128_S128x3_S5000x3_1_0_0_1_n_n_wf
def dot_S5000x128_S128x8_S5000x8_1_0_0_1_n_n : DotDims S5000x128 S128x8 S5000x8 where
  lhsContracting := [1]
  rhsContracting := [0]
  lhsNonContracting := [0]
  rhsNonContracting := [1]
  lhsBatch := []
  rhsBatch := []
  wf := dot_S5000x128_S128x8_S5000x8_1_0_0_1_n_n_wf

abbrev win0_0 : Pipeline.Window sig grid0 :=
  Pipeline.Window.ofSpec (Memref.whole main_v24) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v38) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S128x3.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg9) S3.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg10) S128x8.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg11) S8.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v39_0) S5000x3.size cc1_transform_9 reads1_9 true false 2 stage1_9 sem1_9
    hrank1 hreads1_9 hinb1_9 nbuf1_9 (Memref.isWhole_whole _) hwx1_9 hstage1_9

abbrev win1_10 : Pipeline.Window sig grid1 :=
  Pipeline.Window.ofSpec (Memref.whole main_v39_1) S5000x8.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S128x128 : Shape := ⟨2, ![128, 128]⟩
abbrev S128x3 : Shape := ⟨2, ![128, 3]⟩
abbrev S3 : Shape := ⟨1, ![3]⟩
abbrev S128x8 : Shape := ⟨2, ![128, 8]⟩
abbrev S8 : Shape := ⟨1, ![8]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S100000x128 : Shape := ⟨2, ![100000, 128]⟩
abbrev S1x128 : Shape := ⟨2, ![1, 128]⟩
abbrev S1600000x128 : Shape := ⟨2, ![1600000, 128]⟩
abbrev S100000x3 : Shape := ⟨2, ![100000, 3]⟩
abbrev S1x3 : Shape := ⟨2, ![1, 3]⟩
abbrev S100000x8 : Shape := ⟨2, ![100000, 8]⟩
abbrev S1x8 : Shape := ⟨2, ![1, 8]⟩

abbrev nBuf : Space → Nat
  | .hbm => 92
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x128, .f32⟩
  | .hbm, ⟨3, _⟩ => ⟨S64x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x3, .f32⟩
  | .hbm, ⟨9, _⟩ => ⟨S3, .f32⟩
  | .hbm, ⟨10, _⟩ => ⟨S128x8, .f32⟩
  | .hbm, ⟨11, _⟩ => ⟨S8, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000x64, .f32⟩
  | .hbm, ⟨25, _⟩ => ⟨S_, .f32⟩
  | .hbm, ⟨26, _⟩ => ⟨S100000x64, .f32⟩
  | .hbm, ⟨27, _⟩ => ⟨S1600000x1, .i32⟩
  | .hbm, ⟨28, _⟩ => ⟨S100000x64, .f32⟩
  | .hbm, ⟨29, _⟩ => ⟨S_, .f32⟩
  | .hbm, ⟨30, _⟩ => ⟨S1600000, .f32⟩
  | .hbm, ⟨31, _⟩ => ⟨S_, .f32⟩
  | .hbm, ⟨32, _⟩ => ⟨S100000, .f32⟩
  | .hbm, ⟨33, _⟩ => ⟨S1600000x1, .i32⟩
  | .hbm, ⟨34, _⟩ => ⟨S100000, .f32⟩
  | .hbm, ⟨35, _⟩ => ⟨S_, .f32⟩
  | .hbm, ⟨36, _⟩ => ⟨S100000, .f32⟩
  | .hbm, ⟨37, _⟩ => ⟨S100000, .f32⟩
  | .hbm, ⟨38, _⟩ => ⟨S100000x1, .f32⟩
  | .hbm, ⟨39, _⟩ => ⟨S100000x64, .f32⟩
  | .hbm, ⟨40, _⟩ => ⟨S100000x64, .f32⟩
  | .hbm, ⟨41, _⟩ => ⟨S100000x128, .f32⟩
  | .hbm, ⟨42, _⟩ => ⟨S100000x128, .f32⟩
  | .hbm, ⟨43, _⟩ => ⟨S100000x128, .f32⟩
  | .hbm, ⟨44, _⟩ => ⟨S1x128, .f32⟩
  | .hbm, ⟨45, _⟩ => ⟨S100000x128, .f32⟩
  | .hbm, ⟨46, _⟩ => ⟨S100000x128, .f32⟩
  | .hbm, ⟨47, _⟩ => ⟨S_, .f32⟩
  | .hbm, ⟨48, _⟩ => ⟨S100000x128, .f32⟩
  | .hbm, ⟨49, _⟩ => ⟨S100000x128, .f32⟩
  | .hbm, ⟨50, _⟩ => ⟨S_, .i32⟩
  | .hbm, ⟨51, _⟩ => ⟨S1600000, .i32⟩
  | .hbm, ⟨52, _⟩ => ⟨S1600000, .i1⟩
  | .hbm, ⟨53, _⟩ => ⟨S_, .i32⟩
  | .hbm, ⟨54, _⟩ => ⟨S1600000, .i32⟩
  | .hbm, ⟨55, _⟩ => ⟨S1600000, .i32⟩
  | .hbm, ⟨56, _⟩ => ⟨S1600000, .i32⟩
  | .hbm, ⟨57, _⟩ => ⟨S1600000x1, .i32⟩
  | .hbm, ⟨58, _⟩ => ⟨S1600000x128, .f32⟩
  | .hbm, ⟨59, _⟩ => ⟨S_, .f32⟩
  | .hbm, ⟨60, _⟩ => ⟨S100000x128, .f32⟩
  | .hbm, ⟨61, _⟩ => ⟨S1600000x1, .i32⟩
  | .hbm, ⟨62, _⟩ => ⟨S100000x128, .f32⟩
  | .hbm, ⟨63, _⟩ => ⟨S_, .f32⟩
  | .hbm, ⟨64, _⟩ => ⟨S1600000, .f32⟩
  | .hbm, ⟨65, _⟩ => ⟨S_, .f32⟩
  | .hbm, ⟨66, _⟩ => ⟨S100000, .f32⟩
  | .hbm, ⟨67, _⟩ => ⟨S1600000x1, .i32⟩
  | .hbm, ⟨68, _⟩ => ⟨S100000, .f32⟩
  | .hbm, ⟨69, _⟩ => ⟨S_, .f32⟩
  | .hbm, ⟨70, _⟩ => ⟨S100000, .f32⟩
  | .hbm, ⟨71, _⟩ => ⟨S100000, .f32⟩
  | .hbm, ⟨72, _⟩ => ⟨S100000x1, .f32⟩
  | .hbm, ⟨73, _⟩ => ⟨S100000x128, .f32⟩
  | .hbm, ⟨74, _⟩ => ⟨S100000x128, .f32⟩
  | .hbm, ⟨75, _⟩ => ⟨S100000x128, .f32⟩
  | .hbm, ⟨76, _⟩ => ⟨S100000x128, .f32⟩
  | .hbm, ⟨77, _⟩ => ⟨S100000x128, .f32⟩
  | .hbm, ⟨78, _⟩ => ⟨S1x128, .f32⟩
  | .hbm, ⟨79, _⟩ => ⟨S100000x128, .f32⟩
  | .hbm, ⟨80, _⟩ => ⟨S100000x128, .f32⟩
  | .hbm, ⟨81, _⟩ => ⟨S_, .f32⟩
  | .hbm, ⟨82, _⟩ => ⟨S100000x128, .f32⟩
  | .hbm, ⟨83, _⟩ => ⟨S100000x128, .f32⟩
  | .hbm, ⟨84, _⟩ => ⟨S100000x3, .f32⟩
  | .hbm, ⟨85, _⟩ => ⟨S1x3, .f32⟩
  | .hbm, ⟨86, _⟩ => ⟨S100000x3, .f32⟩
  | .hbm, ⟨87, _⟩ => ⟨S100000x3, .f32⟩
  | .hbm, ⟨88, _⟩ => ⟨S100000x8, .f32⟩
  | .hbm, ⟨89, _⟩ => ⟨S1x8, .f32⟩
  | .hbm, ⟨90, _⟩ => ⟨S100000x8, .f32⟩
  | .hbm, ⟨91, _⟩ => ⟨S100000x8, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_call0_cst : Ref sig .tc := ⟨.hbm, 47, rfl⟩
abbrev main_call0_v0 : Ref sig .tc := ⟨.hbm, 48, rfl⟩
abbrev main_v29 : Ref sig .tc := ⟨.hbm, 49, rfl⟩
abbrev main_c_4 : Ref sig .tc := ⟨.hbm, 50, rfl⟩
abbrev main_v30 : Ref sig .tc := ⟨.hbm, 51, rfl⟩
abbrev main_v31 : Ref sig .tc := ⟨.hbm, 52, rfl⟩
abbrev main_c_5 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_6 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_7 : Ref sig .tc := ⟨.hbm, 63, rfl⟩
abbrev main_v40 : Ref sig .tc := ⟨.hbm, 64, rfl⟩
abbrev main_cst_8 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_9 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_call1_cst : Ref sig .tc := ⟨.hbm, 81, rfl⟩
abbrev main_call1_v0 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S3_S1x3_1 : S3.BroadcastsInDim S1x3 (![1] : Fin 1 → Fin S1x3.rank)
  bcast_S1x3_S100000x3_0_1 : S1x3.BroadcastsInDim S100000x3 (![0, 1] : Fin 2 → Fin S100000x3.rank)
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x128_S100000x128_1_0_0_1_n_n_wf : DotDims.WF S100000x64 S64x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x3_S100000x3_1_0_0_1_n_n_wf : DotDims.WF S100000x128 S128x3 S100000x3 [1] [0] [0] [1] [] []
  dot_S100000x128_S128x8_S100000x8_1_0_0_1_n_n_wf : DotDims.WF S100000x128 S128x8 S100000x8 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x3_S100000x3_1_0_0_1_n_n : DotDims S100000x128 S128x3 S100000x3 where
  lhsContracting := [1]
  rhsContracting := [0]
  lhsNonContracting := [0]
  rhsNonContracting := [1]
  lhsBatch := []
  rhsBatch := []
  wf := dot_S100000x128_S128x3_S100000x3_1_0_0_1_n_n_wf
def dot_S100000x128_S128x8_S100000x8_1_0_0_1_n_n : DotDims S100000x128 S128x8 S100000x8 where
  lhsContracting := [1]
  rhsContracting := [0]
  lhsNonContracting := [0]
  rhsNonContracting := [1]
  lhsBatch := []
  rhsBatch := []
  wf := dot_S100000x128_S128x8_S100000x8_1_0_0_1_n_n_wf

class Facts : Prop extends Facts₀ where

variable [Facts]
-- ==== Proof.KernelRun.lean ====
/-
  The run of the two-region program with its two result arrays NAMED.

  The program is four segments: host operations, the first pallas_call, host operations, the second
  pallas_call.  The memory at each boundary is a fold from the launch memory: `W1` after the first stretch
  of host operations, `W2` after the first call (its arrays at what its write-backs leave), `W3` after the
  second stretch, `W4` after the second call.  Every weakly fair execution terminates, without a fault,
  with every unscoped buffer at `W4`: so each result array ends at `W4` of its buffer, and each argument
  as launched.
-/
import proofs.«149116_j57655640982186_1_alg».proof.Proof.Gen.KernelIdeal.Frame

set_option maxRecDepth 16384

noncomputable section

namespace Cert.Sage.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with both result arrays at the last boundary's
    contents and the arguments as launched. -/
theorem run_outs : θ_run defs (onTc (τ := τ) (main (F := F))) ⟨m, fun _ => 0, ρ⟩ (fun r => ∀ c : Dev nD,
      r.2.mem ((c.tc : Thread nD τ).loc main_v39_0) = W4 m ρ c (Proc.devRef .tc main_v39_0)
      ∧ r.2.mem ((c.tc : Thread nD τ).loc main_v39_1) = W4 m ρ c (Proc.devRef .tc main_v39_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v39_0 (by decide)),
       h c _ (mem_uc main_v39_1 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c)⟩)

end Cert.Sage.KernelRun

end
-- ==== Proof.LibFinite.lean ====
/-
  Real-valued extended reals.

  The extended reals `EReal = ℝ ∪ {⊥, ⊤}` are not a ring: distributivity fails at the
  infinities.  An algebraic identity between two extended-real expressions is therefore
  proved by first showing that every leaf is (the coercion of) a real number, and then
  computing in `ℝ`.  This file provides the predicate and its closure properties:

  * `IsReal x`   : `x` is the coercion of a real number (`isReal_iff`: equivalently
                    `x ≠ ⊤ ∧ x ≠ ⊥`); `AllReal v` : every entry of the family `v` is real
                    (`allReal_iff_exists`: `v` is the coercion of a real family).
  * `IsPosReal x`: `x` is the coercion of a positive real.
  * closure of `IsReal` under `0`, `1`, `+`, `-`, unary `-`, `*`, `max`, `min`,
    finite sums (`coe_finset_sum`: the coercion commutes with a finite sum), division by a
    nonzero real (`Ideal.div`), the reciprocal square root of a positive real
    (`Ideal.rsqrt`), and the pointwise versions for families (`AllReal`).
  * a sum of squares of reals is nonnegative; nonnegative + positive is positive.
-/
import Idealize.ShloMosaic.PureOps.Ideal

noncomputable section

namespace Cert.LibFinite

open Idealize.ShloMosaic
open scoped BigOperators

/-- An extended real is REAL when it is the coercion of a real number. -/
def IsReal (x : EReal) : Prop := ∃ r : ℝ, x = (r : EReal)

/-- An extended real is a POSITIVE REAL when it is the coercion of a positive real number. -/
def IsPosReal (x : EReal) : Prop := ∃ r : ℝ, 0 < r ∧ x = (r : EReal)

/-- Every entry of the family `v` is real. -/
def AllReal {ι : Sort*} (v : ι → EReal) : Prop := ∀ i, IsReal (v i)

/-- Every entry of the family `v` is a positive real. -/
def AllPosReal {ι : Sort*} (v : ι → EReal) : Prop := ∀ i, IsPosReal (v i)

/-! ### The predicate -/

/-- Real means: neither infinity. -/
theorem isReal_iff (x : EReal) : IsReal x ↔ x ≠ ⊤ ∧ x ≠ ⊥ := by
  constructor
  · rintro ⟨r, rfl⟩; exact ⟨EReal.coe_ne_top r, EReal.coe_ne_bot r⟩
  · rintro ⟨ht, hb⟩; exact ⟨x.toReal, (EReal.coe_toReal ht hb).symm⟩

theorem IsReal.ne_top {x : EReal} (h : IsReal x) : x ≠ ⊤ := ((isReal_iff x).mp h).1
theorem IsReal.ne_bot {x : EReal} (h : IsReal x) : x ≠ ⊥ := ((isReal_iff x).mp h).2

/-- A real extended real is the coercion of its own real part. -/
theorem IsReal.coe_toReal {x : EReal} (h : IsReal x) : ((x.toReal : ℝ) : EReal) = x :=
  EReal.coe_toReal h.ne_top h.ne_bot

theorem isReal_coe (r : ℝ) : IsReal (r : EReal) := ⟨r, rfl⟩
theorem isReal_zero : IsReal 0 := ⟨0, rfl⟩
theorem isReal_one : IsReal 1 := ⟨1, rfl⟩

theorem IsPosReal.isReal {x : EReal} (h : IsPosReal x) : IsReal x := let ⟨r, _, e⟩ := h; ⟨r, e⟩
theorem IsPosReal.pos {x : EReal} (h : IsPosReal x) : 0 < x := by
  obtain ⟨r, hr, rfl⟩ := h; exact EReal.coe_pos.mpr hr
theorem IsPosReal.ne_zero {x : EReal} (h : IsPosReal x) : x ≠ 0 := h.pos.ne'
theorem isPosReal_coe {r : ℝ} (h : 0 < r) : IsPosReal (r : EReal) := ⟨r, h, rfl⟩
/-- A real that is positive as an extended real is a positive real. -/
theorem IsReal.isPosReal {x : EReal} (h : IsReal x) (hp : 0 < x) : IsPosReal x := by
  obtain ⟨r, rfl⟩ := h; exact ⟨r, EReal.coe_pos.mp hp, rfl⟩

theorem AllPosReal.allReal {ι : Sort*} {v : ι → EReal} (h : AllPosReal v) : AllReal v := fun i => (h i).isReal

/-- A family is real exactly when it is the coercion of a family of reals. -/
theorem allReal_iff_exists {ι : Sort*} (v : ι → EReal) : AllReal v ↔ ∃ f : ι → ℝ, v = fun i => (f i : EReal) := by
  constructor
  · intro h; exact ⟨fun i => (v i).toReal, funext fun i => ((h i).coe_toReal).symm⟩
  · rintro ⟨f, rfl⟩ i; exact ⟨f i, rfl⟩

theorem allReal_coe {ι : Sort*} (f : ι → ℝ) : AllReal (fun i => (f i : EReal)) := fun i => ⟨f i, rfl⟩
theorem allReal_const {ι : Sort*} {c : EReal} (h : IsReal c) : AllReal (fun _ : ι => c) := fun _ => h
/-- Every entry of a reindexed family is an entry of the family. -/
theorem AllReal.comp {ι κ : Sort*} {v : ι → EReal} (h : AllReal v) (f : κ → ι) : AllReal (fun k => v (f k)) :=
  fun k => h (f k)

/-! ### Pointwise closure -/

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.neg {x : EReal} (hx : IsReal x) : IsReal (-x) := by
  obtain ⟨a, rfl⟩ := hx; exact ⟨-a, (EReal.coe_neg a).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The coercion commutes with `max` (it is monotone). -/
theorem coe_max (a b : ℝ) : ((max a b : ℝ) : EReal) = max (a : EReal) (b : EReal) :=
  (EReal.coe_strictMono.monotone).map_max
/-- The coercion commutes with `min`. -/
theorem coe_min (a b : ℝ) : ((min a b : ℝ) : EReal) = min (a : EReal) (b : EReal) :=
  (EReal.coe_strictMono.monotone).map_min

theorem IsReal.max {x y : EReal} (hx : IsReal x) (hy : IsReal y) : IsReal (max x y) := by
  obtain ⟨a, rfl⟩ := hx; obtain ⟨b, rfl⟩ := hy; exact ⟨Max.max a b, (coe_max a b).symm⟩
theorem IsReal.min {x y : EReal} (hx : IsReal x) (hy : IsReal y) : IsReal (min x y) := by
  obtain ⟨a, rfl⟩ := hx; obtain ⟨b, rfl⟩ := hy; exact ⟨Min.min a b, (coe_min a b).symm⟩

theorem IsPosReal.add {x y : EReal} (hx : IsPosReal x) (hy : IsPosReal y) : IsPosReal (x + y) := by
  obtain ⟨a, ha, rfl⟩ := hx; obtain ⟨b, hb, rfl⟩ := hy
  exact ⟨a + b, add_pos ha hb, (EReal.coe_add a b).symm⟩
theorem IsPosReal.mul {x y : EReal} (hx : IsPosReal x) (hy : IsPosReal y) : IsPosReal (x * y) := by
  obtain ⟨a, ha, rfl⟩ := hx; obtain ⟨b, hb, rfl⟩ := hy
  exact ⟨a * b, mul_pos ha hb, (EReal.coe_mul a b).symm⟩
/-- A nonnegative real plus a positive real is a positive real. -/
theorem IsPosReal.nonneg_add {x y : EReal} (hx : IsReal x) (hx0 : 0 ≤ x) (hy : IsPosReal y) : IsPosReal (x + y) := by
  obtain ⟨a, rfl⟩ := hx; obtain ⟨b, hb, rfl⟩ := hy
  exact ⟨a + b, add_pos_of_nonneg_of_pos (EReal.coe_nonneg.mp hx0) hb, (EReal.coe_add a b).symm⟩
/-- The maximum of a real and a positive real is a positive real. -/
theorem IsPosReal.max_right {x y : EReal} (hx : IsReal x) (hy : IsPosReal y) : IsPosReal (max x y) :=
  (hx.max hy.isReal).isPosReal (lt_of_lt_of_le hy.pos (le_max_right x y))
theorem IsPosReal.max_left {x y : EReal} (hx : IsPosReal x) (hy : IsReal y) : IsPosReal (max x y) :=
  (hx.isReal.max hy).isPosReal (lt_of_lt_of_le hx.pos (le_max_left x y))

/-- The square of a real extended real is nonnegative. -/
theorem IsReal.mul_self_nonneg {x : EReal} (hx : IsReal x) : 0 ≤ x * x := by
  obtain ⟨a, rfl⟩ := hx; rw [← EReal.coe_mul]; exact EReal.coe_nonneg.mpr (_root_.mul_self_nonneg a)

/-! ### Finite sums -/

/-- The coercion `ℝ → EReal` commutes with a finite sum. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of real extended reals is real. -/
theorem IsReal.sum {ι : Type*} (s : Finset ι) (f : ι → EReal) (h : ∀ i ∈ s, IsReal (f i)) :
    IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

/-- A finite sum over a real family is real. -/
theorem AllReal.sum {ι : Type*} {f : ι → EReal} (h : AllReal f) (s : Finset ι) : IsReal (∑ i ∈ s, f i) :=
  IsReal.sum s f fun i _ => h i

/-- A finite sum of products of two real families is real (a dot product). -/
theorem AllReal.sum_mul {ι : Type*} {f g : ι → EReal} (hf : AllReal f) (hg : AllReal g) (s : Finset ι) :
    IsReal (∑ i ∈ s, f i * g i) :=
  IsReal.sum s _ fun i _ => (hf i).mul (hg i)

/-- A finite sum of nonnegative extended reals is nonnegative. -/
theorem sum_nonneg {ι : Type*} (s : Finset ι) (f : ι → EReal) (h : ∀ i ∈ s, 0 ≤ f i) : 0 ≤ ∑ i ∈ s, f i :=
  Finset.sum_nonneg h

/-- A finite sum of squares of real extended reals is nonnegative. -/
theorem sum_mul_self_nonneg {ι : Type*} (s : Finset ι) {f : ι → EReal} (h : ∀ i ∈ s, IsReal (f i)) :
    0 ≤ ∑ i ∈ s, f i * f i :=
  Finset.sum_nonneg fun i hi => (h i hi).mul_self_nonneg

/-! ### Division and the reciprocal square root -/

/-- A real divided by a NONZERO real is real: `x / y = x * y⁻¹`. -/
theorem IsReal.div {x y : EReal} (hx : IsReal x) (hy : IsReal y) (hy0 : y ≠ 0) : IsReal (Ideal.div x y) := by
  obtain ⟨a, rfl⟩ := hx; obtain ⟨b, rfl⟩ := hy
  have hb : b ≠ 0 := fun h => hy0 (by rw [h]; rfl)
  rw [Ideal.div_coe hb]
  exact (isReal_coe a).mul (isReal_coe _)

/-- The quotient of two reals, the divisor nonzero, is the coercion of the real quotient. -/
theorem div_coe_coe (a : ℝ) {b : ℝ} (hb : b ≠ 0) : Ideal.div (a : EReal) (b : EReal) = ((a / b : ℝ) : EReal) := by
  rw [Ideal.div_coe hb, ← EReal.coe_mul, mul_one_div]

/-- A positive real divided by a positive real is a positive real. -/
theorem IsPosReal.div {x y : EReal} (hx : IsPosReal x) (hy : IsPosReal y) : IsPosReal (Ideal.div x y) := by
  obtain ⟨a, ha, rfl⟩ := hx; obtain ⟨b, hb, rfl⟩ := hy
  rw [div_coe_coe a hb.ne']
  exact ⟨a / b, div_pos ha hb, rfl⟩

/-- The reciprocal square root of a positive real is `(√r)⁻¹`. -/
theorem rsqrt_coe_of_pos {r : ℝ} (h : 0 < r) : Ideal.rsqrt (r : EReal) = (((Real.sqrt r)⁻¹ : ℝ) : EReal) := by
  rw [Ideal.rsqrt_coe, if_neg (not_lt.mpr h.le), if_neg h.ne']

/-- The reciprocal square root of a positive real is a positive real. -/
theorem IsPosReal.rsqrt {x : EReal} (hx : IsPosReal x) : IsPosReal (Ideal.rsqrt x) := by
  obtain ⟨r, hr, rfl⟩ := hx
  rw [rsqrt_coe_of_pos hr]
  exact ⟨_, inv_pos.mpr (Real.sqrt_pos.mpr hr), rfl⟩

/-! ### Families, pointwise -/

section Families
variable {ι : Sort*} {v w : ι → EReal}

theorem AllReal.add (hv : AllReal v) (hw : AllReal w) : AllReal (fun i => v i + w i) := fun i => (hv i).add (hw i)
theorem AllReal.sub (hv : AllReal v) (hw : AllReal w) : AllReal (fun i => v i - w i) := fun i => (hv i).sub (hw i)
theorem AllReal.mul (hv : AllReal v) (hw : AllReal w) : AllReal (fun i => v i * w i) := fun i => (hv i).mul (hw i)
theorem AllReal.neg (hv : AllReal v) : AllReal (fun i => -v i) := fun i => (hv i).neg
theorem AllReal.max (hv : AllReal v) (hw : AllReal w) : AllReal (fun i => Max.max (v i) (w i)) :=
  fun i => (hv i).max (hw i)
theorem AllReal.min (hv : AllReal v) (hw : AllReal w) : AllReal (fun i => Min.min (v i) (w i)) :=
  fun i => (hv i).min (hw i)
theorem AllReal.div (hv : AllReal v) (hw : AllReal w) (hw0 : ∀ i, w i ≠ 0) :
    AllReal (fun i => Ideal.div (v i) (w i)) := fun i => (hv i).div (hw i) (hw0 i)
theorem AllPosReal.rsqrt (hv : AllPosReal v) : AllPosReal (fun i => Ideal.rsqrt (v i)) := fun i => (hv i).rsqrt

end Families

end Cert.LibFinite

end
-- ==== Proof.LibFiniteLits.lean ====
/-
  The binary32 literals of a graph-network / normalisation pipeline, read as extended reals:
  each denotes a real number, and the two small ones a POSITIVE real.

  * `0x00000000` is `0`, `0x3F800000` is `1`, `0x40000000` is `2`, `0x47C35000` is `100000`;
  * `0x2B8CBCCC` is `9223372 · 2⁻⁶³` (the binary32 nearest `10⁻¹²`), positive;
  * `0x3727C5AC` is `10995116 · 2⁻⁴⁰` (the binary32 nearest `10⁻⁵`), positive;
  * `0x7FC00000` (a NaN pattern) is `⊥`: NOT real.
-/
import proofs.«149116_j57655640982186_1_alg».proof.Proof.LibFinite

noncomputable section

namespace Cert.LibFinite

open Idealize.ShloMosaic

theorem ofBits_f32_zero : Ideal.ofBits .f32 0x00000000#32 = 0 := by simp [Ideal.ofBits, Ideal.ieee]
theorem ofBits_f32_one : Ideal.ofBits .f32 0x3F800000#32 = 1 := by
  simp [Ideal.ofBits, Ideal.ieee, -EReal.coe_mul]; norm_num
theorem ofBits_f32_two : Ideal.ofBits .f32 0x40000000#32 = ((2 : ℝ) : EReal) := by
  simp [Ideal.ofBits, Ideal.ieee, -EReal.coe_mul]; norm_num
theorem ofBits_f32_1e5 : Ideal.ofBits .f32 0x47C35000#32 = ((100000 : ℝ) : EReal) := by
  simp [Ideal.ofBits, Ideal.ieee, -EReal.coe_mul]; norm_num
theorem ofBits_f32_1em12 : Ideal.ofBits .f32 0x2B8CBCCC#32 = ((9223372 * (2 : ℝ) ^ (-63 : ℤ) : ℝ) : EReal) := by
  simp [Ideal.ofBits, Ideal.ieee, -EReal.coe_mul]
theorem ofBits_f32_1em5 : Ideal.ofBits .f32 0x3727C5AC#32 = ((10995116 * (2 : ℝ) ^ (-40 : ℤ) : ℝ) : EReal) := by
  simp [Ideal.ofBits, Ideal.ieee, -EReal.coe_mul]
theorem ofBits_f32_nan : Ideal.ofBits .f32 0x7FC00000#32 = ⊥ := by simp [Ideal.ofBits, Ideal.ieee]

theorem isReal_ofBits_zero : IsReal (Ideal.ofBits .f32 0x00000000#32) := ofBits_f32_zero ▸ isReal_zero
theorem isReal_ofBits_one : IsReal (Ideal.ofBits .f32 0x3F800000#32) := ofBits_f32_one ▸ isReal_one
theorem isPosReal_ofBits_one : IsPosReal (Ideal.ofBits .f32 0x3F800000#32) := ⟨1, one_pos, ofBits_f32_one⟩
theorem isPosReal_ofBits_two : IsPosReal (Ideal.ofBits .f32 0x40000000#32) := ⟨2, two_pos, ofBits_f32_two⟩
theorem isPosReal_ofBits_1e5 : IsPosReal (Ideal.ofBits .f32 0x47C35000#32) := ⟨100000, by norm_num, ofBits_f32_1e5⟩
theorem isPosReal_ofBits_1em12 : IsPosReal (Ideal.ofBits .f32 0x2B8CBCCC#32) := ⟨_, by positivity, ofBits_f32_1em12⟩
theorem isPosReal_ofBits_1em5 : IsPosReal (Ideal.ofBits .f32 0x3727C5AC#32) := ⟨_, by positivity, ofBits_f32_1em5⟩
theorem isReal_ofBits_two : IsReal (Ideal.ofBits .f32 0x40000000#32) := isPosReal_ofBits_two.isReal
theorem isReal_ofBits_1e5 : IsReal (Ideal.ofBits .f32 0x47C35000#32) := isPosReal_ofBits_1e5.isReal
theorem isReal_ofBits_1em12 : IsReal (Ideal.ofBits .f32 0x2B8CBCCC#32) := isPosReal_ofBits_1em12.isReal
theorem isReal_ofBits_1em5 : IsReal (Ideal.ofBits .f32 0x3727C5AC#32) := isPosReal_ofBits_1em5.isReal
theorem ofBits_1e5_ne_zero : Ideal.ofBits .f32 0x47C35000#32 ≠ 0 := isPosReal_ofBits_1e5.ne_zero

end Cert.LibFinite

end
-- ==== Proof.LibFiniteOps.lean ====
/-
  Real-valuedness through the array operations of a tensor program, read at the extended reals.

  For each operation: if every entry of each float operand is real (`Cert.LibFinite.AllReal`), so is
  every entry of the result.  The operations are those of the Idealize library
  (`Idealize.ShloMosaic`), at the ideal instance `Ideal` (floats are extended reals, exact):

  * elementwise: `constant`, `addf`, `subf`, `mulf`, `maximumf`, `minimumf`, `negf`, `divf` /
    `Host.divf` (divisor nonzero), `rsqrt` / `Host.rsqrt` (argument positive), `sitofp`, `select`,
    `extf` / `truncf` (the identity);
  * re-indexings — every entry of the result is an entry of the operand: `broadcast`, `broadcastTo`,
    `broadcastInDim`, `shapeCast`, `extractStridedSlice`, `Host.slice`, `Host.dynamicSlice`,
    `Host.reverse`, `transpose`, `concatenate`, `Host.gather` (whatever the indices);
  * contractions — a finite sum of products: `matmul`, `Host.dotGeneral`, `Host.dotGeneralAt`;
  * reductions — a finite sum: `Host.reduceAdd`, `multiReduction .add`; a sum of squares is `≥ 0`;
  * `Host.scatterAdd` — the operand plus a finite sum of updates (whatever the indices).
-/
import Idealize.ShloMosaic.PureOps.Ideal.Laws
import proofs.«149116_j57655640982186_1_alg».proof.Proof.LibFinite

noncomputable section

namespace Cert.LibFinite

open Idealize.ShloMosaic
open scoped BigOperators

/-! ### Elementwise -/

section Elementwise
variable {s : Shape} {φ : FTy}

theorem allReal_constant (s : Shape) {φ : FTy} {b : BitVec φ.bits} (h : IsReal (Ideal.ofBits φ b)) :
    AllReal (constant (F := Ideal) s φ b) := fun _ => h
theorem allPosReal_constant (s : Shape) {φ : FTy} {b : BitVec φ.bits} (h : IsPosReal (Ideal.ofBits φ b)) :
    AllPosReal (constant (F := Ideal) s φ b) := fun _ => h

theorem allReal_addf {x y : FVec Ideal s φ} (hx : AllReal x) (hy : AllReal y) : AllReal (addf x y) :=
  fun i => (hx i).add (hy i)
theorem allReal_subf {x y : FVec Ideal s φ} (hx : AllReal x) (hy : AllReal y) : AllReal (subf x y) :=
  fun i => (hx i).sub (hy i)
theorem allReal_mulf {x y : FVec Ideal s φ} (hx : AllReal x) (hy : AllReal y) : AllReal (mulf x y) :=
  fun i => (hx i).mul (hy i)
theorem allReal_maximumf {x y : FVec Ideal s φ} (hx : AllReal x) (hy : AllReal y) : AllReal (maximumf x y) :=
  fun i => (hx i).max (hy i)
theorem allReal_minimumf {x y : FVec Ideal s φ} (hx : AllReal x) (hy : AllReal y) : AllReal (minimumf x y) :=
  fun i => (hx i).min (hy i)
theorem allReal_negf {x : FVec Ideal s φ} (hx : AllReal x) : AllReal (negf x) := fun i => (hx i).neg

theorem allPosReal_addf {x y : FVec Ideal s φ} (hx : AllPosReal x) (hy : AllPosReal y) : AllPosReal (addf x y) :=
  fun i => (hx i).add (hy i)
theorem allPosReal_mulf {x y : FVec Ideal s φ} (hx : AllPosReal x) (hy : AllPosReal y) : AllPosReal (mulf x y) :=
  fun i => (hx i).mul (hy i)
/-- Nonnegative reals plus positive reals: positive reals (a variance plus an epsilon). -/
theorem allPosReal_addf_of_nonneg {x y : FVec Ideal s φ} (hx : AllReal x) (hx0 : ∀ i, 0 ≤ x i) (hy : AllPosReal y) :
    AllPosReal (addf x y) := fun i => IsPosReal.nonneg_add (hx i) (hx0 i) (hy i)
/-- The maximum of reals and positive reals: positive reals (a degree clamped below by an epsilon). -/
theorem allPosReal_maximumf_right {x y : FVec Ideal s φ} (hx : AllReal x) (hy : AllPosReal y) :
    AllPosReal (maximumf x y) := fun i => IsPosReal.max_right (hx i) (hy i)
theorem allPosReal_maximumf_left {x y : FVec Ideal s φ} (hx : AllPosReal x) (hy : AllReal y) :
    AllPosReal (maximumf x y) := fun i => IsPosReal.max_left (hx i) (hy i)
/-- The square of a real array is nonnegative. -/
theorem mulf_self_nonneg {x : FVec Ideal s φ} (hx : AllReal x) (i : s.Idx) : 0 ≤ mulf x x i := (hx i).mul_self_nonneg

/-- Division by a nonzero real array (a kernel's `arith.divf`). -/
theorem allReal_divf {x y : FVec Ideal s φ} (hx : AllReal x) (hy : AllReal y) (hy0 : ∀ i, y i ≠ 0) :
    AllReal (divf x y) := fun i => (hx i).div (hy i) (hy0 i)
/-- Division by a nonzero real array (the host's `divide`). -/
theorem allReal_hostDivf {x y : FVec Ideal s φ} (hx : AllReal x) (hy : AllReal y) (hy0 : ∀ i, y i ≠ 0) :
    AllReal (Host.divf x y) := fun i => (hx i).div (hy i) (hy0 i)
theorem allReal_hostDivf_of_pos {x y : FVec Ideal s φ} (hx : AllReal x) (hy : AllPosReal y) :
    AllReal (Host.divf x y) := fun i => (hx i).div (hy i).isReal (hy i).ne_zero
theorem allPosReal_hostDivf {x y : FVec Ideal s φ} (hx : AllPosReal x) (hy : AllPosReal y) :
    AllPosReal (Host.divf x y) := fun i => (hx i).div (hy i)

/-- A nonnegative real divided by a positive real is nonnegative. -/
theorem div_nonneg_of_pos {x y : EReal} (hx : IsReal x) (hx0 : 0 ≤ x) (hy : IsPosReal y) : 0 ≤ Ideal.div x y := by
  obtain ⟨a, rfl⟩ := hx; obtain ⟨b, hb, rfl⟩ := hy
  rw [div_coe_coe a hb.ne']
  exact EReal.coe_nonneg.mpr (div_nonneg (EReal.coe_nonneg.mp hx0) hb.le)
theorem hostDivf_nonneg {x y : FVec Ideal s φ} (hx : AllReal x) (hx0 : ∀ i, 0 ≤ x i) (hy : AllPosReal y) (i : s.Idx) :
    0 ≤ Host.divf x y i := div_nonneg_of_pos (hx i) (hx0 i) (hy i)

/-- The reciprocal square root of positive reals (a kernel's `math.rsqrt`): positive reals. -/
theorem allPosReal_rsqrt {x : FVec Ideal s φ} (hx : AllPosReal x) : AllPosReal (rsqrt x) := fun i => (hx i).rsqrt
/-- The reciprocal square root of positive reals (the host's `rsqrt`): positive reals. -/
theorem allPosReal_hostRsqrt {x : FVec Ideal s φ} (hx : AllPosReal x) : AllPosReal (Host.rsqrt x) :=
  fun i => (hx i).rsqrt
theorem allReal_hostRsqrt {x : FVec Ideal s φ} (hx : AllPosReal x) : AllReal (Host.rsqrt x) :=
  (allPosReal_hostRsqrt hx).allReal

/-- An integer converted to a float is real. -/
theorem allReal_sitofp {w : Nat} (φ : FTy) (x : IVec s w) : AllReal (sitofp (F := Ideal) φ x) :=
  fun i => ⟨((x i).toInt : ℝ), rfl⟩
theorem sitofp_apply {w : Nat} (φ : FTy) (x : IVec s w) (i : s.Idx) :
    sitofp (F := Ideal) φ x i = (((x i).toInt : ℝ) : EReal) := rfl

/-- A change of format is the identity at the extended reals. -/
theorem allReal_extf {x : FVec Ideal s φ} (ψ : FTy) (h : φ.bits < ψ.bits) (hx : AllReal x) : AllReal (extf ψ x h) :=
  fun i => hx i
theorem allReal_truncf {x : FVec Ideal s φ} (ψ : FTy) (h : ψ.bits < φ.bits) (hx : AllReal x) : AllReal (truncf ψ x h) :=
  fun i => hx i

/-- A selection between two real arrays is real, whatever the condition. -/
theorem allReal_select {c : IVec s 1} {a b : s.Idx → EReal} (ha : AllReal a) (hb : AllReal b) : AllReal (select c a b) := by
  intro i
  show IsReal (if c i = 1 then a i else b i)
  split
  · exact ha i
  · exact hb i
/-- A selection is real where the chosen branch is. -/
theorem allReal_select_of {c : IVec s 1} {a b : s.Idx → EReal} (ha : ∀ i, c i = 1 → IsReal (a i))
    (hb : ∀ i, c i ≠ 1 → IsReal (b i)) : AllReal (select c a b) := by
  intro i
  show IsReal (if c i = 1 then a i else b i)
  split
  · next h => exact ha i h
  · next h => exact hb i h
/-- Where the condition holds everywhere, the selection is its first branch. -/
theorem select_eq_left {α : Type} {c : IVec s 1} {a b : s.Idx → α} (hc : ∀ i, c i = 1) : select c a b = a := by
  funext i
  show (if c i = 1 then a i else b i) = a i
  rw [if_pos (hc i)]
theorem allPosReal_select {c : IVec s 1} {a b : s.Idx → EReal} (ha : AllPosReal a) (hb : AllPosReal b) :
    AllPosReal (select c a b) := by
  intro i
  show IsPosReal (if c i = 1 then a i else b i)
  split
  · exact ha i
  · exact hb i

end Elementwise

/-! ### Re-indexings: every entry of the result is an entry of the operand -/

section Reindex
variable {s t : Shape}

theorem allReal_broadcast (t : Shape) {x : EReal} (hx : IsReal x) : AllReal (broadcast t x) := fun _ => hx
theorem allReal_broadcastTo (t : Shape) {x : s.Idx → EReal} (h : s.Broadcasts t) (hx : AllReal x) :
    AllReal (broadcastTo t x h) := fun _ => hx _
theorem allReal_broadcastInDim (t : Shape) (dims : Fin s.rank → Fin t.rank) (h : s.BroadcastsInDim t dims)
    {x : s.Idx → EReal} (hx : AllReal x) : AllReal (broadcastInDim t dims h x) := fun _ => hx _
theorem allPosReal_broadcastInDim (t : Shape) (dims : Fin s.rank → Fin t.rank) (h : s.BroadcastsInDim t dims)
    {x : s.Idx → EReal} (hx : AllPosReal x) : AllPosReal (broadcastInDim t dims h x) := fun _ => hx _
theorem allReal_shapeCast (t : Shape) {x : s.Idx → EReal} (h : s.ShapeCasts t) (hx : AllReal x) :
    AllReal (shapeCast t x h) := fun _ => hx _
theorem allPosReal_shapeCast (t : Shape) {x : s.Idx → EReal} (h : s.ShapeCasts t) (hx : AllPosReal x) :
    AllPosReal (shapeCast t x h) := fun _ => hx _
theorem allReal_extractStridedSlice (t : Shape) (off : Fin s.rank → Nat) {x : s.Idx → EReal} (h : s.Slices off t)
    (hx : AllReal x) : AllReal (extractStridedSlice t off x h) := fun _ => hx _
theorem allReal_hostSlice (t : Shape) (start strides : Fin s.rank → Nat) {x : s.Idx → EReal}
    (h : s.SlicesBy start strides t) (hx : AllReal x) : AllReal (Host.slice t start strides x h) := fun _ => hx _
theorem allReal_hostDynamicSlice (t : Shape) {x : s.Idx → EReal} (start : Fin s.rank → Int)
    (h : s.Slices (fun _ => 0) t) (hx : AllReal x) : AllReal (Host.dynamicSlice t x start h) := fun _ => hx _
theorem allReal_hostReverse (axes : List (Fin s.rank)) {x : s.Idx → EReal} (hx : AllReal x) :
    AllReal (Host.reverse axes x) := fun _ => hx _
theorem allReal_transpose (t : Shape) (perm : List (Fin s.rank)) {x : s.Idx → EReal} (h : s.Transposes perm t)
    (hx : AllReal x) : AllReal (transpose t perm x h) := fun _ => hx _

/-- A gather reads the operand at (clamped) indices: every entry of the result is an entry of the operand. -/
theorem allReal_hostGather {si : Shape} {w : Nat} (d : GatherDims s si t) {x : s.Idx → EReal} (idx : IVec si w)
    (hx : AllReal x) : AllReal (Host.gather d x idx) := fun _ => hx _
theorem allPosReal_hostGather {si : Shape} {w : Nat} (d : GatherDims s si t) {x : s.Idx → EReal} (idx : IVec si w)
    (hx : AllPosReal x) : AllPosReal (Host.gather d x idx) := fun _ => hx _

/-- A concatenation of real arrays is real. -/
theorem allReal_concatenate (t : Shape) (a : Fin t.rank) (xs : List ((s : Shape) × (s.Idx → EReal)))
    (h : Shape.Concatenates (xs.map (·.1)) t a) (hxs : ∀ p ∈ xs, AllReal p.2) : AllReal (concatenate t a xs h) :=
  fun _ => hxs _ (List.getElem_mem _) _

end Reindex

/-! ### Contractions: a finite sum of products -/

section Contract
variable {sl sr so : Shape} {φ₁ φ₂ : FTy}

theorem allReal_matmul (d : DotDims sl sr so) (prec : Option ContractPrecision) {lhs : FVec Ideal sl φ₁}
    {rhs : FVec Ideal sr φ₂} {acc : FVec Ideal so .f32} (hl : AllReal lhs) (hr : AllReal rhs) (ha : AllReal acc) :
    AllReal (matmul d prec lhs rhs acc) :=
  fun j => (ha j).add (IsReal.sum _ _ fun k _ => (hl _).mul (hr _))

theorem allReal_hostDotGeneral (d : DotDims sl sr so) (prec : Option ContractPrecision) {lhs : FVec Ideal sl φ₁}
    {rhs : FVec Ideal sr φ₂} (hl : AllReal lhs) (hr : AllReal rhs) : AllReal (Host.dotGeneral d prec lhs rhs) :=
  fun j => isReal_zero.add (IsReal.sum _ _ fun k _ => (hl _).mul (hr _))

theorem allReal_hostDotGeneralAt (sched : HostSchedule) (d : DotDims sl sr so) (prec : Option ContractPrecision)
    {lhs : FVec Ideal sl φ₁} {rhs : FVec Ideal sr φ₂} (hl : AllReal lhs) (hr : AllReal rhs) :
    AllReal (Host.dotGeneralAt sched d prec lhs rhs) :=
  fun j => isReal_zero.add (IsReal.sum _ _ fun k _ => (hl _).mul (hr _))

end Contract

/-! ### Reductions: a finite sum -/

section Reduce
variable {s t u : Shape} {φ : FTy} {axes : List (Fin s.rank)}

/-- The host's float sum: the initial value plus a finite sum of entries. -/
theorem allReal_hostReduceAdd {x : FVec Ideal s φ} {init : u.Idx → Ideal φ} (h : s.ReducesTo axes t) (hu : 0 < u.numel)
    (hx : AllReal x) (hi : AllReal init) : AllReal (Host.reduceAdd x init h hu) :=
  fun _ => (hi _).add (IsReal.sum _ _ fun i _ => hx i)

/-- The host's float sum of nonnegative entries from a nonnegative initial value is nonnegative. -/
theorem hostReduceAdd_nonneg {x : FVec Ideal s φ} {init : u.Idx → Ideal φ} (h : s.ReducesTo axes t) (hu : 0 < u.numel)
    (hx0 : ∀ i, 0 ≤ x i) (hi0 : ∀ i, 0 ≤ init i) (j : t.Idx) : 0 ≤ Host.reduceAdd x init h hu j :=
  add_nonneg (hi0 _) (Finset.sum_nonneg fun i _ => hx0 i)

/-- A kernel's `vector.multi_reduction <add>`: a finite sum of entries. -/
theorem allReal_multiReduction_add {src : FVec Ideal s φ} {acc : BitVec φ.bits} (h : s.Reduces axes t)
    (hφ : FKind.Formats φ) (hacc : acc = FKind.add.neutral φ hφ) (hx : AllReal src) :
    AllReal (multiReduction .add axes t src acc h hφ hacc) := by
  intro j
  show IsReal (∑ i ∈ Finset.univ.filter (fun i => h.drop i = j), src i)
  exact IsReal.sum _ _ fun i _ => hx i

end Reduce

/-! ### Scatter-add: the operand plus a finite sum of updates -/

section Scatter
variable {s si u : Shape} {φ : FTy} {w : Nat}

/-- The host's accumulating scatter: each operand entry plus the sum of the updates landing on it
    (those landing outside the operand are dropped); real if the operand and the updates are, whatever
    the indices. -/
theorem allReal_hostScatterAdd (d : ScatterDims s si u) {x : FVec Ideal s φ} (idx : IVec si w) {upd : FVec Ideal u φ}
    (hx : AllReal x) (hu : AllReal upd) : AllReal (Host.scatterAdd d x idx upd) :=
  fun i => (hx i).add (IsReal.sum _ _ fun j _ => hu j)

theorem allReal_hostScatterAddAt (sched : HostSchedule) (d : ScatterDims s si u) {x : FVec Ideal s φ} (idx : IVec si w)
    {upd : FVec Ideal u φ} (hx : AllReal x) (hu : AllReal upd) : AllReal (Host.scatterAddAt sched d x idx upd) :=
  fun i => (hx i).add (IsReal.sum _ _ fun j _ => hu j)

/-- The accumulating scatter read at an entry. -/
theorem hostScatterAdd_apply (d : ScatterDims s si u) (x : FVec Ideal s φ) (idx : IVec si w) (upd : FVec Ideal u φ)
    (i : s.Idx) :
    Host.scatterAdd d x idx upd i = x i + ∑ j ∈ Finset.univ.filter (fun j => d.resultIdx? j idx = some i), upd j := rfl

/-- Nonnegative operand and updates: nonnegative result (a degree). -/
theorem hostScatterAdd_nonneg (d : ScatterDims s si u) {x : FVec Ideal s φ} (idx : IVec si w) {upd : FVec Ideal u φ}
    (hx0 : ∀ i, 0 ≤ x i) (hu0 : ∀ j, 0 ≤ upd j) (i : s.Idx) : 0 ≤ Host.scatterAdd d x idx upd i :=
  add_nonneg (hx0 i) (Finset.sum_nonneg fun j _ => hu0 j)

end Scatter

end Cert.LibFinite

end
-- ==== Proof.HostMean.lean ====
/-
  The neighbourhood mean of a graph network, as both programs compute it on the host.

  From the edge list `ei` (row 0 the sources, row 1 the destinations): `sumTo` adds, for every edge,
  the source's feature row onto the destination's row; `deg` counts the edges arriving at each node and
  `degClip` is that count raised to at least one.  One program multiplies the sums by the reciprocal
  `1 / degClip` (`meanMul`), the other divides them by `degClip` (`meanDiv`).  The count is a finite sum of
  ones, hence a real number, and at least one after clipping; for a positive real `d` and ANY extended
  real `s`, `s · (1/d) = s / d` — so the two means are one array (`meanMul64_eq`, `meanMul128_eq`),
  whatever the feature rows hold.
-/
import proofs.«149116_j57655640982186_1_alg».proof.Proof.Gen.KernelIdeal
import proofs.«149116_j57655640982186_1_alg».proof.Proof.LibFiniteLits
import proofs.«149116_j57655640982186_1_alg».proof.Proof.LibFiniteOps

noncomputable section

namespace Cert.Sage

open Idealize.ShloMosaic Cert.KernelIdeal Cert.KernelIdeal.Facts₀ Cert.LibFinite

/-- The edges' source nodes: row 0 of the edge list. -/
def srcRow (ei : IVec S2x1600000 32) : IVec S1600000 32 :=
  shapeCast _ (extractStridedSlice S1x1600000 ![0, 0] ei slices_S2x1600000_S1x1600000_0_0) shapeCasts_S1x1600000_S1600000

/-- The edges' destination nodes: row 1 of the edge list. -/
def dstRow (ei : IVec S2x1600000 32) : IVec S1600000 32 :=
  shapeCast _ (extractStridedSlice S1x1600000 ![1, 0] ei slices_S2x1600000_S1x1600000_1_0) shapeCasts_S1x1600000_S1600000

/-- The destinations as the column of start indices the scatter takes. -/
def dstIdx (ei : IVec S2x1600000 32) : IVec S1600000x1 32 :=
  broadcastInDim S1600000x1 ![0] bcast_S1600000_S1600000x1_0 (dstRow ei)

/-- The sources (a negative index counted from the end) as the column of start indices the gather takes. -/
def srcIdx (ei : IVec S2x1600000 32) : IVec S1600000x1 32 :=
  broadcastInDim S1600000x1 ![0] bcast_S1600000_S1600000x1_0
    (select
      (cmpi .slt (srcRow ei) (broadcastInDim S1600000 ![] bcast_S_S1600000 (constantI S_ 32 0#32)))
      (addi (srcRow ei) (broadcastInDim S1600000 ![] bcast_S_S1600000 (constantI S_ 32 100000#32)))
      (srcRow ei))

/-- The number of edges arriving at each node: ones added onto zeros at the destinations. -/
def deg (ei : IVec S2x1600000 32) : FVec Ideal S100000 .f32 :=
  Host.scatterAdd scatter_S100000_S1600000x1_S1600000_n_0_0_1
    (broadcastInDim S100000 ![] bcast_S_S100000 (constant (F := Ideal) S_ .f32 0x00000000#32))
    (dstIdx ei)
    (broadcastInDim S1600000 ![] bcast_S_S1600000 (constant (F := Ideal) S_ .f32 0x3F800000#32))

/-- The count raised to at least one. -/
def degClip (ei : IVec S2x1600000 32) : FVec Ideal S100000 .f32 :=
  maximumf (deg ei) (broadcastInDim S100000 ![] bcast_S_S100000 (constant (F := Ideal) S_ .f32 0x3F800000#32))

/-- The reciprocal of the clipped count. -/
def degInv (ei : IVec S2x1600000 32) : FVec Ideal S100000 .f32 :=
  Host.divf (broadcastInDim S100000 ![] bcast_S_S100000 (constant (F := Ideal) S_ .f32 0x3F800000#32)) (degClip ei)

/-- Rows of width 64: every edge's source row added onto its destination row. -/
def sumTo64 (x : FVec Ideal S100000x64 .f32) (ei : IVec S2x1600000 32) : FVec Ideal S100000x64 .f32 :=
  Host.scatterAdd scatter_S100000x64_S1600000x1_S1600000x64_1_0_0_1
    (broadcastInDim S100000x64 ![] bcast_S_S100000x64 (constant (F := Ideal) S_ .f32 0x00000000#32))
    (dstIdx ei)
    (Host.gather gather_S100000x64_S1600000x1_S1600000x64_1_0_n_n_0_1_164 x (srcIdx ei))

/-- Rows of width 128: every edge's source row added onto its destination row. -/
def sumTo128 (h : FVec Ideal S100000x128 .f32) (ei : IVec S2x1600000 32) : FVec Ideal S100000x128 .f32 :=
  Host.scatterAdd scatter_S100000x128_S1600000x1_S1600000x128_1_0_0_1
    (broadcastInDim S100000x128 ![] bcast_S_S100000x128 (constant (F := Ideal) S_ .f32 0x00000000#32))
    (dstIdx ei)
    (Host.gather gather_S100000x128_S1600000x1_S1600000x128_1_0_n_n_0_1_1128 h (srcIdx ei))

/-- The mean by the reciprocal, width 64. -/
def meanMul64 (x : FVec Ideal S100000x64 .f32) (ei : IVec S2x1600000 32) : FVec Ideal S100000x64 .f32 :=
  mulf (sumTo64 x ei)
    (broadcastInDim S100000x64 ![0, 1] bcast_S100000x1_S100000x64_0_1 (broadcastInDim S100000x1 ![0] bcast_S100000_S100000x1_0 (degInv ei)))

/-- The mean by the quotient, width 64. -/
def meanDiv64 (x : FVec Ideal S100000x64 .f32) (ei : IVec S2x1600000 32) : FVec Ideal S100000x64 .f32 :=
  Host.divf (sumTo64 x ei)
    (broadcastInDim S100000x64 ![0, 1] bcast_S100000x1_S100000x64_0_1 (broadcastInDim S100000x1 ![0] bcast_S100000_S100000x1_0 (degClip ei)))

/-- The mean by the reciprocal, width 128. -/
def meanMul128 (h : FVec Ideal S100000x128 .f32) (ei : IVec S2x1600000 32) : FVec Ideal S100000x128 .f32 :=
  mulf (sumTo128 h ei)
    (broadcastInDim S100000x128 ![0, 1] bcast_S100000x1_S100000x128_0_1 (broadcastInDim S100000x1 ![0] bcast_S100000_S100000x1_0 (degInv ei)))

/-- The mean by the quotient, width 128. -/
def meanDiv128 (h : FVec Ideal S100000x128 .f32) (ei : IVec S2x1600000 32) : FVec Ideal S100000x128 .f32 :=
  Host.divf (sumTo128 h ei)
    (broadcastInDim S100000x128 ![0, 1] bcast_S100000x1_S100000x128_0_1 (broadcastInDim S100000x1 ![0] bcast_S100000_S100000x1_0 (degClip ei)))

/-- The clipped count is a positive real at every node. -/
theorem degClip_pos (ei : IVec S2x1600000 32) : AllPosReal (degClip ei) :=
  allPosReal_maximumf_right
    (allReal_hostScatterAdd _ _ (allReal_broadcastInDim _ _ _ (allReal_constant S_ isReal_ofBits_zero))
      (allReal_broadcastInDim _ _ _ (allReal_constant S_ isReal_ofBits_one)))
    (allPosReal_broadcastInDim _ _ _ (allPosReal_constant S_ isPosReal_ofBits_one))

/-- For a positive real `d` and any extended real `s`: `s · (1/d) = s / d`. -/
theorem mul_recip_eq_div (s d : EReal) (hd : IsPosReal d) :
    s * Ideal.div (Ideal.ofBits .f32 0x3F800000#32) d = Ideal.div s d := by
  obtain ⟨r, hr, rfl⟩ := hd
  rw [ofBits_f32_one, Ideal.div_coe hr.ne', Ideal.div_coe hr.ne', one_mul]

/-- A column of reciprocals broadcast along rows and multiplied in is the quotient by the broadcast column:
    the law at every entry, for any shapes and any two broadcasts. -/
theorem mul_bcast_recip_eq_div {s0 s1 s2 : Shape} (d1 : Fin s0.rank → Fin s1.rank) (h1 : s0.BroadcastsInDim s1 d1)
    (d2 : Fin s1.rank → Fin s2.rank) (h2 : s1.BroadcastsInDim s2 d2)
    (S : FVec Ideal s2 .f32) (ones dC : FVec Ideal s0 .f32)
    (hones : ∀ k, ones k = Ideal.ofBits .f32 0x3F800000#32) (hd : AllPosReal dC) :
    mulf S (broadcastInDim s2 d2 h2 (broadcastInDim s1 d1 h1 (Host.divf ones dC)))
      = Host.divf S (broadcastInDim s2 d2 h2 (broadcastInDim s1 d1 h1 dC)) := by
  funext i
  show S i * Ideal.div (ones _) (dC _) = Ideal.div (S i) (dC _)
  rw [hones]
  exact mul_recip_eq_div _ _ (hd _)

/-- The all-ones array the reciprocal is taken of. -/
theorem ones_apply (k : S100000.Idx) :
    (broadcastInDim S100000 ![] bcast_S_S100000 (constant (F := Ideal) S_ .f32 0x3F800000#32) : FVec Ideal S100000 .f32) k
      = Ideal.ofBits .f32 0x3F800000#32 := rfl

theorem meanMul64_eq (x : FVec Ideal S100000x64 .f32) (ei : IVec S2x1600000 32) : meanMul64 x ei = meanDiv64 x ei := by
  unfold meanMul64 meanDiv64 degInv
  exact mul_bcast_recip_eq_div _ _ _ _ (sumTo64 x ei) _ (degClip ei) ones_apply (degClip_pos ei)

theorem meanMul128_eq (h : FVec Ideal S100000x128 .f32) (ei : IVec S2x1600000 32) : meanMul128 h ei = meanDiv128 h ei := by
  unfold meanMul128 meanDiv128 degInv
  exact mul_bcast_recip_eq_div _ _ _ _ (sumTo128 h ei) _ (degClip ei) ones_apply (degClip_pos ei)

end Cert.Sage

end
-- ==== Proof.HostValue.lean ====
/-
  What the host operations leave in the arrays the two pallas_calls read.

  Before the first call the host computes the neighbourhood means of the node features (by the reciprocal of
  the clipped edge count); between the calls it computes the neighbourhood means of the first call's result in
  the same way, with the same count.  Neither stretch writes an argument array, and the second stretch does not
  write the first call's result.
-/
import proofs.«149116_j57655640982186_1_alg».proof.Proof.Gen.KernelIdeal.Frame
import proofs.«149116_j57655640982186_1_alg».proof.Proof.HostMean
import Idealize.ShloMosaic.Lib.StableHlo.Run

set_option maxRecDepth 16384

noncomputable section

namespace Cert.Sage.HostValue

open Cert.KernelIdeal Cert.KernelIdeal.Gen Cert.Sage
open Idealize.ShloMosaic Idealize.ShloMosaic.TcCoe Idealize.SL.Sem Idealize.ShloMosaic.StableHlo

variable (m : (ℓ : Loc nD τ sig) → Buf (Elt Ideal) ℓ) (ρ : Dev nD → PrngReg)

/-! ## Before the first call -/

/-- The first call's first operand: the means of the node features, by the reciprocal. -/
theorem V1_v24 (c : Dev nD) : V1 m ρ c main_v24 = meanMul64 (m ((c : Thread nD τ).loc main_arg0)) (m ((c : Thread nD τ).loc main_arg1)) := by
  show StableHlo.after hostOps0 (W0 m ρ c) (Proc.devRef .tc main_v24) = _
  after_results_simp
  rfl

theorem V1_arg0 (c : Dev nD) : V1 m ρ c main_arg0 = m ((c : Thread nD τ).loc main_arg0) := by
  show StableHlo.after hostOps0 (W0 m ρ c) (Proc.devRef .tc main_arg0) = _
  after_results_simp <;> rfl
theorem V1_arg2 (c : Dev nD) : V1 m ρ c main_arg2 = m ((c : Thread nD τ).loc main_arg2) := by
  show StableHlo.after hostOps0 (W0 m ρ c) (Proc.devRef .tc main_arg2) = _
  after_results_simp <;> rfl
theorem V1_arg3 (c : Dev nD) : V1 m ρ c main_arg3 = m ((c : Thread nD τ).loc main_arg3) := by
  show StableHlo.after hostOps0 (W0 m ρ c) (Proc.devRef .tc main_arg3) = _
  after_results_simp <;> rfl
theorem V1_arg4 (c : Dev nD) : V1 m ρ c main_arg4 = m ((c : Thread nD τ).loc main_arg4) := by
  show StableHlo.after hostOps0 (W0 m ρ c) (Proc.devRef .tc main_arg4) = _
  after_results_simp <;> rfl

/-! ## Between the calls: what the second stretch reads of the memory the first call leaves -/

theorem W2_v25 (c : Dev nD) : W2 m ρ c (Proc.devRef .tc main_v25) = (dat0 (V1 m ρ) c).arrAt 5 cfg0.N := W2_arr m ρ c 5

theorem W2_v1 (c : Dev nD) : W2 m ρ c (Proc.devRef .tc main_v1) = srcRow (m ((c : Thread nD τ).loc main_arg1)) :=
  (W2_of_ne m ρ c main_v1 (by decide)).trans (by
    show StableHlo.after hostOps0 (W0 m ρ c) (Proc.devRef .tc main_v1) = _
    after_results_simp <;> rfl)

theorem W2_v3 (c : Dev nD) : W2 m ρ c (Proc.devRef .tc main_v3) = dstRow (m ((c : Thread nD τ).loc main_arg1)) :=
  (W2_of_ne m ρ c main_v3 (by decide)).trans (by
    show StableHlo.after hostOps0 (W0 m ρ c) (Proc.devRef .tc main_v3) = _
    after_results_simp <;> rfl)

theorem W2_v11 (c : Dev nD) : W2 m ρ c (Proc.devRef .tc main_v11) = degInv (m ((c : Thread nD τ).loc main_arg1)) :=
  (W2_of_ne m ρ c main_v11 (by decide)).trans (by
    show StableHlo.after hostOps0 (W0 m ρ c) (Proc.devRef .tc main_v11) = _
    after_results_simp <;> rfl)

theorem W2_arg5 (c : Dev nD) : W2 m ρ c (Proc.devRef .tc main_arg5) = m ((c : Thread nD τ).loc main_arg5) :=
  (W2_of_ne m ρ c main_arg5 (by decide)).trans (by
    show StableHlo.after hostOps0 (W0 m ρ c) (Proc.devRef .tc main_arg5) = _
    after_results_simp <;> rfl)
theorem W2_arg6 (c : Dev nD) : W2 m ρ c (Proc.devRef .tc main_arg6) = m ((c : Thread nD τ).loc main_arg6) :=
  (W2_of_ne m ρ c main_arg6 (by decide)).trans (by
    show StableHlo.after hostOps0 (W0 m ρ c) (Proc.devRef .tc main_arg6) = _
    after_results_simp <;> rfl)
theorem W2_arg7 (c : Dev nD) : W2 m ρ c (Proc.devRef .tc main_arg7) = m ((c : Thread nD τ).loc main_arg7) :=
  (W2_of_ne m ρ c main_arg7 (by decide)).trans (by
    show StableHlo.after hostOps0 (W0 m ρ c) (Proc.devRef .tc main_arg7) = _
    after_results_simp <;> rfl)
theorem W2_arg8 (c : Dev nD) : W2 m ρ c (Proc.devRef .tc main_arg8) = m ((c : Thread nD τ).loc main_arg8) :=
  (W2_of_ne m ρ c main_arg8 (by decide)).trans (by
    show StableHlo.after hostOps0 (W0 m ρ c) (Proc.devRef .tc main_arg8) = _
    after_results_simp <;> rfl)
theorem W2_arg9 (c : Dev nD) : W2 m ρ c (Proc.devRef .tc main_arg9) = m ((c : Thread nD τ).loc main_arg9) :=
  (W2_of_ne m ρ c main_arg9 (by decide)).trans (by
    show StableHlo.after hostOps0 (W0 m ρ c) (Proc.devRef .tc main_arg9) = _
    after_results_simp <;> rfl)
theorem W2_arg10 (c : Dev nD) : W2 m ρ c (Proc.devRef .tc main_arg10) = m ((c : Thread nD τ).loc main_arg10) :=
  (W2_of_ne m ρ c main_arg10 (by decide)).trans (by
    show StableHlo.after hostOps0 (W0 m ρ c) (Proc.devRef .tc main_arg10) = _
    after_results_simp <;> rfl)
theorem W2_arg11 (c : Dev nD) : W2 m ρ c (Proc.devRef .tc main_arg11) = m ((c : Thread nD τ).loc main_arg11) :=
  (W2_of_ne m ρ c main_arg11 (by decide)).trans (by
    show StableHlo.after hostOps0 (W0 m ρ c) (Proc.devRef .tc main_arg11) = _
    after_results_simp <;> rfl)

/-! ## Before the second call -/

/-- The second call's first operand: the means of the first call's result, by the reciprocal. -/
theorem V3_v38 (c : Dev nD) :
    V3 m ρ c main_v38 = meanMul128 ((dat0 (V1 m ρ) c).arrAt 5 cfg0.N) (m ((c : Thread nD τ).loc main_arg1)) := by
  show StableHlo.after hostOps1 (W2 m ρ c) (Proc.devRef .tc main_v38) = _
  after_results_simp
  rw [W2_v25, W2_v1, W2_v3, W2_v11]
  rfl

/-- The second call's second operand: the first call's result. -/
theorem V3_v25 (c : Dev nD) : V3 m ρ c main_v25 = (dat0 (V1 m ρ) c).arrAt 5 cfg0.N := by
  show StableHlo.after hostOps1 (W2 m ρ c) (Proc.devRef .tc main_v25) = _
  after_results_simp
  exact W2_v25 m ρ c

theorem V3_arg5 (c : Dev nD) : V3 m ρ c main_arg5 = m ((c : Thread nD τ).loc main_arg5) := by
  show StableHlo.after hostOps1 (W2 m ρ c) (Proc.devRef .tc main_arg5) = _
  after_results_simp
  exact W2_arg5 m ρ c
theorem V3_arg6 (c : Dev nD) : V3 m ρ c main_arg6 = m ((c : Thread nD τ).loc main_arg6) := by
  show StableHlo.after hostOps1 (W2 m ρ c) (Proc.devRef .tc main_arg6) = _
  after_results_simp
  exact W2_arg6 m ρ c
theorem V3_arg7 (c : Dev nD) : V3 m ρ c main_arg7 = m ((c : Thread nD τ).loc main_arg7) := by
  show StableHlo.after hostOps1 (W2 m ρ c) (Proc.devRef .tc main_arg7) = _
  after_results_simp
  exact W2_arg7 m ρ c
theorem V3_arg8 (c : Dev nD) : V3 m ρ c main_arg8 = m ((c : Thread nD τ).loc main_arg8) := by
  show StableHlo.after hostOps1 (W2 m ρ c) (Proc.devRef .tc main_arg8) = _
  after_results_simp
  exact W2_arg8 m ρ c
theorem V3_arg9 (c : Dev nD) : V3 m ρ c main_arg9 = m ((c : Thread nD τ).loc main_arg9) := by
  show StableHlo.after hostOps1 (W2 m ρ c) (Proc.devRef .tc main_arg9) = _
  after_results_simp
  exact W2_arg9 m ρ c
theorem V3_arg10 (c : Dev nD) : V3 m ρ c main_arg10 = m ((c : Thread nD τ).loc main_arg10) := by
  show StableHlo.after hostOps1 (W2 m ρ c) (Proc.devRef .tc main_arg10) = _
  after_results_simp
  exact W2_arg10 m ρ c
theorem V3_arg11 (c : Dev nD) : V3 m ρ c main_arg11 = m ((c : Thread nD τ).loc main_arg11) := by
  show StableHlo.after hostOps1 (W2 m ρ c) (Proc.devRef .tc main_arg11) = _
  after_results_simp
  exact W2_arg11 m ρ c

end Cert.Sage.HostValue

end
-- ==== Proof.LibRowsLayer.lean ====
/-
  The mathematics of a two-layer mean-aggregating graph network, on the extended reals.

  A dense layer on the rows of two arrays: entry (r, c) of `layer a x Wl Wr b` is
      max( Σ_q a(r,q)·Wl(q,c) + Σ_q x(r,q)·Wr(q,c) + b(c), 0 ),
  and a linear head: entry (r, c) of `head h W b` is Σ_q h(r,q)·W(q,c) + b(c).
  Both depend on row r of their row operands only, so a block of consecutive rows of the result
  is the same function of the same block of rows of the operands (`layer_rows`, `head_rows`).
-/
import Idealize.ShloMosaic.PureOps.Ideal
import Idealize.ShloMosaic.Lib.ValueIdx

noncomputable section

namespace Cert.Sage

open Idealize.ShloMosaic Idealize.ShloMosaic.ValueIdx
open scoped BigOperators

/-- A rank-2 array of extended reals. -/
abbrev Arr2 (n k : Nat) : Type := (⟨2, ![n, k]⟩ : Shape).Idx → EReal
/-- A rank-1 array of extended reals. -/
abbrev Arr1 (c : Nat) : Type := (⟨1, ![c]⟩ : Shape).Idx → EReal

variable {n N k c : Nat}

/-- The float zero both programs clip at. -/
def zeroF : EReal := Ideal.ofBits .f32 0x00000000#32

/-- The row coordinate of an index, as a number below the row extent. -/
abbrev rowOf {n c : Nat} (i : (⟨2, ![n, c]⟩ : Shape).Idx) : Fin n := ⟨(i 0).val, idx2_lt0 i⟩
/-- The column coordinate of an index, as a number below the column extent. -/
abbrev colOf {n c : Nat} (i : (⟨2, ![n, c]⟩ : Shape).Idx) : Fin c := ⟨(i 1).val, idx2_lt1 i⟩

/-- Rows against columns: entry (r, c) is Σ_q a(r,q)·W(q,c). -/
def rowsMul (a : Arr2 n k) (W : Arr2 k c) : Arr2 n c :=
  fun i => ∑ q : Fin k, a (ix2 (rowOf i) q) * W (ix2 q (colOf i))

/-- A row vector added to every row. -/
def addRow (v : Arr2 n c) (b : Arr1 c) : Arr2 n c := fun i => v i + b (ix1 (colOf i))

/-- One layer: the aggregated rows through `Wl`, the rows themselves through `Wr`, the bias, clipped below at zero. -/
def layer (a x : Arr2 n k) (Wl Wr : Arr2 k c) (b : Arr1 c) : Arr2 n c :=
  fun i => max (rowsMul a Wl i + rowsMul x Wr i + b (ix1 (colOf i))) zeroF

/-- A linear head. -/
def head (h : Arr2 n k) (W : Arr2 k c) (b : Arr1 c) : Arr2 n c :=
  fun i => rowsMul h W i + b (ix1 (colOf i))

/-- `rowsMul` at row `r` reads row `r` of its row operand only. -/
theorem rowsMul_rows (A : Arr2 N k) (a : Arr2 n k) (W : Arr2 k c) (I : (⟨2, ![N, c]⟩ : Shape).Idx)
    (i : (⟨2, ![n, c]⟩ : Shape).Idx) (hc : (I 1).val = (i 1).val)
    (ha : ∀ q : Fin k, A (ix2 (rowOf I) q) = a (ix2 (rowOf i) q)) :
    rowsMul A W I = rowsMul a W i := by
  unfold rowsMul
  refine Finset.sum_congr rfl fun q _ => ?_
  rw [ha q]
  have : colOf I = colOf i := Fin.ext hc
  rw [this]

/-- A block of rows of a layer is the layer of the blocks of rows. -/
theorem layer_rows (A X : Arr2 N k) (a x : Arr2 n k) (Wl Wr : Arr2 k c) (b : Arr1 c)
    (I : (⟨2, ![N, c]⟩ : Shape).Idx) (i : (⟨2, ![n, c]⟩ : Shape).Idx) (hc : (I 1).val = (i 1).val)
    (ha : ∀ q : Fin k, A (ix2 (rowOf I) q) = a (ix2 (rowOf i) q))
    (hx : ∀ q : Fin k, X (ix2 (rowOf I) q) = x (ix2 (rowOf i) q)) :
    layer A X Wl Wr b I = layer a x Wl Wr b i := by
  unfold layer
  rw [rowsMul_rows A a Wl I i hc ha, rowsMul_rows X x Wr I i hc hx]
  have : colOf I = colOf i := Fin.ext hc
  rw [this]

/-- A block of rows of a head is the head of the block of rows. -/
theorem head_rows (H : Arr2 N k) (h : Arr2 n k) (W : Arr2 k c) (b : Arr1 c)
    (I : (⟨2, ![N, c]⟩ : Shape).Idx) (i : (⟨2, ![n, c]⟩ : Shape).Idx) (hc : (I 1).val = (i 1).val)
    (hh : ∀ q : Fin k, H (ix2 (rowOf I) q) = h (ix2 (rowOf i) q)) :
    head H W b I = head h W b i := by
  unfold head
  rw [rowsMul_rows H h W I i hc hh]
  have : colOf I = colOf i := Fin.ext hc
  rw [this]

end Cert.Sage

end
-- ==== Proof.LibRowsDot.lean ====
/-
  A plain matrix product read as rows against columns.

  A `tpu.matmul` of an [n, k] array with a [k, c] array into a zero accumulator, whose dimension numbers
  contract the second axis of the left operand with the first of the right and keep the other two in
  order, is at entry (p, q) the sum over the contraction position of left(p, ·)·right(·, q): `rowsMul`.
  The four coordinate facts of the dimension numbers are hypotheses (each record proves them by unfolding).
-/
import proofs.«149116_j57655640982186_1_alg».proof.Proof.LibRowsLayer
import Idealize.ShloMosaic.PureOps.Ideal.Laws

noncomputable section

namespace Cert.Sage

open Idealize.ShloMosaic Idealize.ShloMosaic.ValueIdx
open scoped BigOperators

/-- The matrix product into zeros, at entry (p, q), is the row–column sum. -/
theorem matmul_zero_rows {n k c : Nat} {φ₁ φ₂ : FTy}
    (D : DotDims ⟨2, ![n, k]⟩ ⟨2, ![k, c]⟩ ⟨2, ![n, c]⟩) (hr : D.contr.rank = 1)
    (hs : D.contr.size ⟨0, by omega⟩ = k)
    (l0 : ∀ (i : (⟨2, ![n, c]⟩ : Shape).Idx) (q : D.contr.Idx), (D.lhsIdx i q 0).val = (i 0).val)
    (l1 : ∀ (i : (⟨2, ![n, c]⟩ : Shape).Idx) (q : D.contr.Idx), (D.lhsIdx i q 1).val = (q ⟨0, by omega⟩).val)
    (r0 : ∀ (i : (⟨2, ![n, c]⟩ : Shape).Idx) (q : D.contr.Idx), (D.rhsIdx i q 0).val = (q ⟨0, by omega⟩).val)
    (r1 : ∀ (i : (⟨2, ![n, c]⟩ : Shape).Idx) (q : D.contr.Idx), (D.rhsIdx i q 1).val = (i 1).val)
    (prec : Option ContractPrecision) (a : FVec Ideal ⟨2, ![n, k]⟩ φ₁) (W : FVec Ideal ⟨2, ![k, c]⟩ φ₂)
    (p : Fin n) (q : Fin c) :
    matmul D prec a W (constant ⟨2, ![n, c]⟩ .f32 0x00000000#32) (ix2 p q) = rowsMul (n := n) (k := k) (c := c) a W (ix2 p q) := by
  show FloatOps.matmul D prec a W (constant ⟨2, ![n, c]⟩ .f32 0x00000000#32) (ix2 p q) = _
  rw [Ideal.matmul_constant_zero_apply, ← Equiv.sum_comp (contrEquiv1 D k hr hs).symm]
  unfold rowsMul
  refine Finset.sum_congr rfl fun j _ => ?_
  have hk := contrEquiv1_symm_val D k hr hs j
  have el : D.lhsIdx (ix2 p q) ((contrEquiv1 D k hr hs).symm j) = ix2 p j := funext fun ax => Fin.ext (by
    match ax with
    | ⟨0, _⟩ => exact l0 _ _
    | ⟨1, _⟩ => exact (l1 _ _).trans hk)
  have er : D.rhsIdx (ix2 p q) ((contrEquiv1 D k hr hs).symm j) = ix2 j q := funext fun ax => Fin.ext (by
    match ax with
    | ⟨0, _⟩ => exact (r0 _ _).trans hk
    | ⟨1, _⟩ => exact r1 _ _)
  rw [el, er]
  rfl

end Cert.Sage

end
-- ==== Proof.Payload.lean ====
/-
  What each kernel body stores, as the layer and head functions of the blocks it loads.

  The first body stores `layer` of its two row blocks, the two weight matrices and the bias.  The second body
  forms the same `layer` of its blocks (its hidden block) and stores two linear heads of it.  A change of float
  format is the identity on the extended reals, a matrix product into zeros is the row–column sum, and a bias
  cast to one row and broadcast over the rows adds `b(q)` at column `q`.
-/
import proofs.«149116_j57655640982186_1_alg».proof.Proof.Gen.KernelIdeal.Skeleton
import proofs.«149116_j57655640982186_1_alg».proof.Proof.LibRowsDot
import Idealize.ShloMosaic.Lib.Pipeline.Value
import Idealize.ShloMosaic.Lib.ValueLayout

noncomputable section

namespace Cert.Sage.Payload

open Idealize.ShloMosaic Idealize.ShloMosaic.ValueIdx Cert.KernelIdeal Cert.KernelIdeal.Gen Cert.Sage
open scoped BigOperators

/-! The coordinates of `dot_S5000x64_S64x128_S5000x128_1_0_0_1_n_n`'s operand indices. -/
namespace D64
theorem l0 (i : S5000x128.Idx) (q : dot_S5000x64_S64x128_S5000x128_1_0_0_1_n_n.contr.Idx) : (dot_S5000x64_S64x128_S5000x128_1_0_0_1_n_n.lhsIdx i q 0).val = (i 0).val := by
  unfold DotDims.lhsIdx
  rw [dif_neg (show ¬(0 : Fin S5000x64.rank) ∈ dot_S5000x64_S64x128_S5000x128_1_0_0_1_n_n.lhsBatch by decide), dif_pos (show (0 : Fin S5000x64.rank) ∈ dot_S5000x64_S64x128_S5000x128_1_0_0_1_n_n.lhsNonContracting by decide)]
  rfl
theorem l1 (i : S5000x128.Idx) (q : dot_S5000x64_S64x128_S5000x128_1_0_0_1_n_n.contr.Idx) : (dot_S5000x64_S64x128_S5000x128_1_0_0_1_n_n.lhsIdx i q 1).val = (q ⟨0, by decide⟩).val :=
  dot_S5000x64_S64x128_S5000x128_1_0_0_1_n_n.lhsIdx_val_of_single rfl i q
theorem r0 (i : S5000x128.Idx) (q : dot_S5000x64_S64x128_S5000x128_1_0_0_1_n_n.contr.Idx) : (dot_S5000x64_S64x128_S5000x128_1_0_0_1_n_n.rhsIdx i q 0).val = (q ⟨0, by decide⟩).val :=
  dot_S5000x64_S64x128_S5000x128_1_0_0_1_n_n.rhsIdx_val_of_single rfl i q
theorem r1 (i : S5000x128.Idx) (q : dot_S5000x64_S64x128_S5000x128_1_0_0_1_n_n.contr.Idx) : (dot_S5000x64_S64x128_S5000x128_1_0_0_1_n_n.rhsIdx i q 1).val = (i 1).val := by
  unfold DotDims.rhsIdx
  rw [dif_neg (show ¬(1 : Fin S64x128.rank) ∈ dot_S5000x64_S64x128_S5000x128_1_0_0_1_n_n.rhsBatch by decide), dif_pos (show (1 : Fin S64x128.rank) ∈ dot_S5000x64_S64x128_S5000x128_1_0_0_1_n_n.rhsNonContracting by decide)]
  rfl
end D64

/-! The coordinates of `dot_S5000x128_S128x128_S5000x128_1_0_0_1_n_n`'s operand indices. -/
namespace D128
theorem l0 (i : S5000x128.Idx) (q : dot_S5000x128_S128x128_S5000x128_1_0_0_1_n_n.contr.Idx) : (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem l1 (i : S5000x128.Idx) (q : dot_S5000x128_S128x128_S5000x128_1_0_0_1_n_n.contr.Idx) : (dot_S5000x128_S128x128_S5000x128_1_0_0_1_n_n.lhsIdx i q 1).val = (q ⟨0, by decide⟩).val :=
  dot_S5000x128_S128x128_S5000x128_1_0_0_1_n_n.lhsIdx_val_of_single rfl i q
theorem r0 (i : S5000x128.Idx) (q : dot_S5000x128_S128x128_S5000x128_1_0_0_1_n_n.contr.Idx) : (dot_S5000x128_S128x128_S5000x128_1_0_0_1_n_n.rhsIdx i q 0).val = (q ⟨0, by decide⟩).val :=
  dot_S5000x128_S128x128_S5000x128_1_0_0_1_n_n.rhsIdx_val_of_single rfl i q
theorem r1 (i : S5000x128.Idx) (q : dot_S5000x128_S128x128_S5000x128_1_0_0_1_n_n.contr.Idx) : (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl
end D128

/-! The coordinates of `dot_S5000x128_S128x3_S5000x3_1_0_0_1_n_n`'s operand indices. -/
namespace D3
theorem l0 (i : S5000x3.Idx) (q : dot_S5000x128_S128x3_S5000x3_1_0_0_1_n_n.contr.Idx) : (dot_S5000x128_S128x3_S5000x3_1_0_0_1_n_n.lhsIdx i q 0).val = (i 0).val := by
  unfold DotDims.lhsIdx
  rw [dif_neg (show ¬(0 : Fin S5000x128.rank) ∈ dot_S5000x128_S128x3_S5000x3_1_0_0_1_n_n.lhsBatch by decide), dif_pos (show (0 : Fin S5000x128.rank) ∈ dot_S5000x128_S128x3_S5000x3_1_0_0_1_n_n.lhsNonContracting by decide)]
  rfl
theorem l1 (i : S5000x3.Idx) (q : dot_S5000x128_S128x3_S5000x3_1_0_0_1_n_n.contr.Idx) : (dot_S5000x128_S128x3_S5000x3_1_0_0_1_n_n.lhsIdx i q 1).val = (q ⟨0, by decide⟩).val :=
  dot_S5000x128_S128x3_S5000x3_1_0_0_1_n_n.lhsIdx_val_of_single rfl i q
theorem r0 (i : S5000x3.Idx) (q : dot_S5000x128_S128x3_S5000x3_1_0_0_1_n_n.contr.Idx) : (dot_S5000x128_S128x3_S5000x3_1_0_0_1_n_n.rhsIdx i q 0).val = (q ⟨0, by decide⟩).val :=
  dot_S5000x128_S128x3_S5000x3_1_0_0_1_n_n.rhsIdx_val_of_single rfl i q
theorem r1 (i : S5000x3.Idx) (q : dot_S5000x128_S128x3_S5000x3_1_0_0_1_n_n.contr.Idx) : (dot_S5000x128_S128x3_S5000x3_1_0_0_1_n_n.rhsIdx i q 1).val = (i 1).val := by
  unfold DotDims.rhsIdx
  rw [dif_neg (show ¬(1 : Fin S128x3.rank) ∈ dot_S5000x128_S128x3_S5000x3_1_0_0_1_n_n.rhsBatch by decide), dif_pos (show (1 : Fin S128x3.rank) ∈ dot_S5000x128_S128x3_S5000x3_1_0_0_1_n_n.rhsNonContracting by decide)]
  rfl
end D3

/-! The coordinates of `dot_S5000x128_S128x8_S5000x8_1_0_0_1_n_n`'s operand indices. -/
namespace D8
theorem l0 (i : S5000x8.Idx) (q : dot_S5000x128_S128x8_S5000x8_1_0_0_1_n_n.contr.Idx) : (dot_S5000x128_S128x8_S5000x8_1_0_0_1_n_n.lhsIdx i q 0).val = (i 0).val := by
  unfold DotDims.lhsIdx
  rw [dif_neg (show ¬(0 : Fin S5000x128.rank) ∈ dot_S5000x128_S128x8_S5000x8_1_0_0_1_n_n.lhsBatch by decide), dif_pos (show (0 : Fin S5000x128.rank) ∈ dot_S5000x128_S128x8_S5000x8_1_0_0_1_n_n.lhsNonContracting by decide)]
  rfl
theorem l1 (i : S5000x8.Idx) (q : dot_S5000x128_S128x8_S5000x8_1_0_0_1_n_n.contr.Idx) : (dot_S5000x128_S128x8_S5000x8_1_0_0_1_n_n.lhsIdx i q 1).val = (q ⟨0, by decide⟩).val :=
  dot_S5000x128_S128x8_S5000x8_1_0_0_1_n_n.lhsIdx_val_of_single rfl i q
theorem r0 (i : S5000x8.Idx) (q : dot_S5000x128_S128x8_S5000x8_1_0_0_1_n_n.contr.Idx) : (dot_S5000x128_S128x8_S5000x8_1_0_0_1_n_n.rhsIdx i q 0).val = (q ⟨0, by decide⟩).val :=
  dot_S5000x128_S128x8_S5000x8_1_0_0_1_n_n.rhsIdx_val_of_single rfl i q
theorem r1 (i : S5000x8.Idx) (q : dot_S5000x128_S128x8_S5000x8_1_0_0_1_n_n.contr.Idx) : (dot_S5000x128_S128x8_S5000x8_1_0_0_1_n_n.rhsIdx i q 1).val = (i 1).val := by
  unfold DotDims.rhsIdx
  rw [dif_neg (show ¬(1 : Fin S128x8.rank) ∈ dot_S5000x128_S128x8_S5000x8_1_0_0_1_n_n.rhsBatch by decide), dif_pos (show (1 : Fin S128x8.rank) ∈ dot_S5000x128_S128x8_S5000x8_1_0_0_1_n_n.rhsNonContracting by decide)]
  rfl
end D8

/-- The first body's stored block at entry (p, q). -/
theorem pay0_apply (x0 x1 : FVec Ideal S5000x64 .f32) (w1 w2 : FVec Ideal S64x128 .f32) (b : FVec Ideal S128 .f32)
    (p : Fin 5000) (q : Fin 128) :
    k0_pay1 (F := Ideal) x0 x1 w1 w2 b (ix2 p q) = layer (n := 5000) (k := 64) (c := 128) x0 x1 w1 w2 b (ix2 p q) := by
  unfold k0_pay1
  rw [maximumf_apply, addf_apply, addf_apply, shapeCast_self,
    matmul_zero_rows dot_S5000x64_S64x128_S5000x128_1_0_0_1_n_n rfl rfl D64.l0 D64.l1 D64.r0 D64.r1 none _ _ p q,
    matmul_zero_rows dot_S5000x64_S64x128_S5000x128_1_0_0_1_n_n rfl rfl D64.l0 D64.l1 D64.r0 D64.r1 none _ _ p q,
    broadcastTo_1b_ab_apply, shapeCast_a_1a_apply]
  rfl

/-- The second body's hidden block at entry (p, q). -/
theorem hid_apply (a h : FVec Ideal S5000x128 .f32) (w1 w2 : FVec Ideal S128x128 .f32) (b : FVec Ideal S128 .f32)
    (p : Fin 5000) (q : Fin 128) :
    k1_pay1 (F := Ideal) a h w1 w2 b (ix2 p q) = layer (n := 5000) (k := 128) (c := 128) a h w1 w2 b (ix2 p q) := by
  unfold k1_pay1
  rw [truncf_apply, maximumf_apply, addf_apply, addf_apply, shapeCast_self, shapeCast_self,
    matmul_zero_rows dot_S5000x128_S128x128_S5000x128_1_0_0_1_n_n rfl rfl D128.l0 D128.l1 D128.r0 D128.r1 none _ _ p q,
    matmul_zero_rows dot_S5000x128_S128x128_S5000x128_1_0_0_1_n_n rfl rfl D128.l0 D128.l1 D128.r0 D128.r1 none _ _ p q,
    broadcastTo_1b_ab_apply, shapeCast_a_1a_apply]
  rfl

/-- The second body's hidden block is the layer of its blocks. -/
theorem hid_eq (a h : FVec Ideal S5000x128 .f32) (w1 w2 : FVec Ideal S128x128 .f32) (b : FVec Ideal S128 .f32) :
    k1_pay1 (F := Ideal) a h w1 w2 b = layer (n := 5000) (k := 128) (c := 128) a h w1 w2 b := by
  funext j
  obtain ⟨p, q, rfl⟩ : ∃ (p : Fin 5000) (q : Fin 128), j = ix2 p q := ⟨j 0, j 1, eq_ix2 j⟩
  exact hid_apply a h w1 w2 b p q

/-- The second body's first stored block at entry (p, q): the class head of the hidden block. -/
theorem cls_apply (a h : FVec Ideal S5000x128 .f32) (w1 w2 : FVec Ideal S128x128 .f32) (b : FVec Ideal S128 .f32)
    (wh : FVec Ideal S128x3 .f32) (bh : FVec Ideal S3 .f32) (p : Fin 5000) (q : Fin 3) :
    k1_pay2 (F := Ideal) a h w1 w2 b wh bh (ix2 p q)
      = head (n := 5000) (k := 128) (c := 3) (layer (n := 5000) (k := 128) (c := 128) a h w1 w2 b) wh bh (ix2 p q) := by
  unfold k1_pay2
  rw [hid_eq, addf_apply,
    matmul_zero_rows dot_S5000x128_S128x3_S5000x3_1_0_0_1_n_n rfl rfl D3.l0 D3.l1 D3.r0 D3.r1 none _ _ p q,
    broadcastTo_1b_ab_apply, shapeCast_a_1a_apply]
  rfl

/-- The second body's second stored block at entry (p, q): the material head of the hidden block. -/
theorem mat_apply (a h : FVec Ideal S5000x128 .f32) (w1 w2 : FVec Ideal S128x128 .f32) (b : FVec Ideal S128 .f32)
    (wm : FVec Ideal S128x8 .f32) (bm : FVec Ideal S8 .f32) (p : Fin 5000) (q : Fin 8) :
    k1_pay3 (F := Ideal) a h w1 w2 b wm bm (ix2 p q)
      = head (n := 5000) (k := 128) (c := 8) (layer (n := 5000) (k := 128) (c := 128) a h w1 w2 b) wm bm (ix2 p q) := by
  unfold k1_pay3
  rw [hid_eq, addf_apply,
    matmul_zero_rows dot_S5000x128_S128x8_S5000x8_1_0_0_1_n_n rfl rfl D8.l0 D8.l1 D8.r0 D8.r1 none _ _ p q,
    broadcastTo_1b_ab_apply, shapeCast_a_1a_apply]
  rfl

end Cert.Sage.Payload

end
-- ==== Proof.Region0.lean ====
/-
  What the first pallas_call leaves in its result array, whatever the arrays hold when it is entered.

  The grid has twenty points; point `t` loads rows 5000·t … 5000·t + 4999 of the aggregated features and of the
  node features, the whole of both weight matrices and of the bias, and writes back rows 5000·t … 5000·t + 4999 of
  the result.  A layer's row depends on the same row of its two row operands only, so what point `t` writes back
  is the block of rows of ONE array, the layer of the whole arrays (`flushed_eq`); the twenty blocks cover the
  result array (`cover`), which therefore ends holding that layer (`final`).
-/
import proofs.«149116_j57655640982186_1_alg».proof.Proof.Gen.KernelIdeal.Frame
import proofs.«149116_j57655640982186_1_alg».proof.Proof.Payload
import Idealize.ShloMosaic.Lib.Pipeline.Value
import Idealize.ShloMosaic.Lib.Tactic

set_option maxRecDepth 16384

noncomputable section

namespace Cert.Sage.Region0

open Cert.KernelIdeal Cert.KernelIdeal.Gen Cert.Sage Cert.Sage.Payload
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps, decided over the grid: the two row windows and the result window move with the
    point along the rows; the weights and the bias stay at block zero. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- The layer of the whole arrays as the call finds them. -/
abbrev G (c : Dev nD) : FVec Ideal S100000x128 .f32 :=
  layer (n := 100000) (k := 64) (c := 128) (V c main_v24) (V c main_arg0) (V c main_arg2) (V c main_arg3) (V c main_arg4)

/-- One point: the stored block at (p, q) is the layer of the whole arrays at the entry `I` of the array whose
    row the two row blocks are read from and whose column is `q`. -/
theorem point_eq (A X : FVec Ideal S100000x64 .f32) (Wl Wr : FVec Ideal S64x128 .f32) (b : FVec Ideal S128 .f32)
    (a x : FVec Ideal S5000x64 .f32) (wl wr : FVec Ideal S64x128 .f32) (bb : FVec Ideal S128 .f32)
    (I : S100000x128.Idx) (p : Fin 5000) (q : Fin 128) (hc : (I 1).val = q.val)
    (ha : ∀ k : Fin 64, A (ix2 (rowOf I) k) = a (ix2 p k)) (hx : ∀ k : Fin 64, X (ix2 (rowOf I) k) = x (ix2 p k))
    (hwl : wl = Wl) (hwr : wr = Wr) (hb : bb = b) :
    k0_pay1 (F := Ideal) a x wl wr bb (ix2 p q) = layer (n := 100000) (k := 64) (c := 128) A X Wl Wr b I := by
  subst hwl hwr hb
  rw [pay0_apply]
  exact (layer_rows A X a x wl wr bb I (ix2 p q) hc ha hx).symm

/-- WHAT POINT `t` WRITES BACK is block `t` of the layer of the whole arrays. -/
theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero hz2]
  simp only [View.ld_unit_zero (S := S5000x64) hz2, View.ld_unit_zero (S := S64x128) hz2, View.ld_unit_zero (S := S128) hz1]
  obtain ⟨e00, e01, e10, e11, e20, e21, e30, e31, e40, e50, e51⟩ := idx_facts t
  funext j
  have hj0 : (j 0).val < 5000 := (j 0).isLt
  have hj1 : (j 1).val < 128 := (j 1).isLt
  have hj : j = ix2 (⟨(j 0).val, hj0⟩ : Fin 5000) (⟨(j 1).val, hj1⟩ : Fin 128) :=
    funext fun a => match a with | ⟨0, _⟩ => rfl | ⟨1, _⟩ => rfl
  rw [View.read_apply]
  show k0_pay1 (iblk0 V c 0 t) (iblk0 V c 1 t) (iblk0 V c 2 t) (iblk0 V c 3 t) (iblk0 V c 4 t) j = _
  rw [hj]
  refine point_eq (V c main_v24) (V c main_arg0) (V c main_arg2) (V c main_arg3) (V c main_arg4) _ _ _ _ _ _ _ _ ?_ ?_ ?_ ?_ ?_ ?_
  · show win0_5.index t (1 : Fin 2) * 128 + 1 * (j 1).val = (j 1).val
    rw [e51]; omega
  · intro k
    show V c main_v24 _ = V c main_v24 (((cfg0.win 0).blk t).view.emb (ix2 (⟨(j 0).val, hj0⟩ : Fin 5000) k))
    refine congrArg (V c main_v24) (funext fun a => Fin.ext ?_)
    match a with
    | ⟨0, _⟩ => show win0_5.index t (0 : Fin 2) * 5000 + 1 * (j 0).val = win0_0.index t (0 : Fin 2) * 5000 + 1 * (j 0).val; rw [e50, e00]
    | ⟨1, _⟩ => show k.val = win0_0.index t (1 : Fin 2) * 64 + 1 * k.val; rw [e01]; omega
  · intro k
    show V c main_arg0 _ = V c main_arg0 (((cfg0.win 1).blk t).view.emb (ix2 (⟨(j 0).val, hj0⟩ : Fin 5000) k))
    refine congrArg (V c main_arg0) (funext fun a => Fin.ext ?_)
    match a with
    | ⟨0, _⟩ => show win0_5.index t (0 : Fin 2) * 5000 + 1 * (j 0).val = win0_1.index t (0 : Fin 2) * 5000 + 1 * (j 0).val; rw [e50, e10]
    | ⟨1, _⟩ => show k.val = win0_1.index t (1 : Fin 2) * 64 + 1 * k.val; rw [e11]; omega
  · funext y
    show V c main_arg2 (((cfg0.win 2).blk t).view.emb y) = V c main_arg2 y
    refine congrArg (V c main_arg2) (funext fun a => Fin.ext ?_)
    match a with
    | ⟨0, _⟩ => show win0_2.index t (0 : Fin 2) * 64 + 1 * (y 0).val = (y 0).val; rw [e20]; omega
    | ⟨1, _⟩ => show win0_2.index t (1 : Fin 2) * 128 + 1 * (y 1).val = (y 1).val; rw [e21]; omega
  · funext y
    show V c main_arg3 (((cfg0.win 3).blk t).view.emb y) = V c main_arg3 y
    refine congrArg (V c main_arg3) (funext fun a => Fin.ext ?_)
    match a with
    | ⟨0, _⟩ => show win0_3.index t (0 : Fin 2) * 64 + 1 * (y 0).val = (y 0).val; rw [e30]; omega
    | ⟨1, _⟩ => show win0_3.index t (1 : Fin 2) * 128 + 1 * (y 1).val = (y 1).val; rw [e31]; omega
  · funext y
    show V c main_arg4 (((cfg0.win 4).blk t).view.emb y) = V c main_arg4 y
    refine congrArg (V c main_arg4) (funext fun a => Fin.ext ?_)
    match a with
    | ⟨0, _⟩ => show win0_4.index t (0 : Fin 1) * 128 + 1 * (y 0).val = (y 0).val; rw [e40]; omega

/-- An index of the result array is in point `t`'s block iff each coordinate is in the block's range on its axis. -/
theorem mem_blk (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v25).slice (win0_5.rect t)).set ↔ _
  rw [View.set_slice_whole, Rect.mem_set_unit]
  exact Iff.rfl

/-- Row `r` of the result array is in the block of point `r / 5000`: the twenty blocks cover the array. -/
theorem cover (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : grid0.N = 20 := N_0
  have ht : (i 0).val / 5000 < cfg0.N := by show (i 0).val / 5000 < grid0.N; rw [hN]; omega
  obtain ⟨-, -, -, -, -, -, -, -, -, e50, e51⟩ := idx_facts ⟨(i 0).val / 5000, ht⟩
  refine ⟨⟨(i 0).val / 5000, ht⟩, flush0_5 _, ?_⟩
  rw [mem_blk]
  intro a
  match a with
  | ⟨0, _⟩ =>
    show win0_5.index ⟨(i 0).val / 5000, ht⟩ (0 : Fin 2) * 5000 ≤ (i 0).val ∧ (i 0).val < win0_5.index ⟨(i 0).val / 5000, ht⟩ (0 : Fin 2) * 5000 + 5000
    rw [e50]; show (i 0).val / 5000 * 5000 ≤ (i 0).val ∧ (i 0).val < (i 0).val / 5000 * 5000 + 5000; omega
  | ⟨1, _⟩ =>
    show win0_5.index ⟨(i 0).val / 5000, ht⟩ (1 : Fin 2) * 128 ≤ (i 1).val ∧ (i 1).val < win0_5.index ⟨(i 0).val / 5000, ht⟩ (1 : Fin 2) * 128 + 128
    rw [e51]; omega

/-- THE RESULT ARRAY after the call: the layer of the arrays as the call found them. -/
theorem final (c : Dev nD) : (dat0 V c).arrAt 5 cfg0.N = G V c :=
  (dat0 V c).arrAt_eq_of_cover 5 (G V c) (fun t _ => flushed_eq V c t) (cover)

end Cert.Sage.Region0

end
-- ==== Proof.Region1.lean ====
/-
  What the second pallas_call leaves in its two result arrays, whatever the arrays hold when it is entered.

  Point `t` of its twenty loads rows 5000·t … 5000·t + 4999 of the aggregated hidden state and of the hidden state,
  the whole of every weight matrix and bias, forms the second layer of those rows and writes back rows
  5000·t … 5000·t + 4999 of the two linear heads of it.  A head's row depends on the same row of the layer, and the
  layer's on the same rows of its two row operands: each written block is the block of rows of ONE array, the head of
  the layer of the whole arrays; the twenty blocks cover each result array.
-/
import proofs.«149116_j57655640982186_1_alg».proof.Proof.Gen.KernelIdeal.Frame
import proofs.«149116_j57655640982186_1_alg».proof.Proof.Payload
import Idealize.ShloMosaic.Lib.Pipeline.Value
import Idealize.ShloMosaic.Lib.Tactic

set_option maxRecDepth 16384

noncomputable section

namespace Cert.Sage.Region1

open Cert.KernelIdeal Cert.KernelIdeal.Gen Cert.Sage Cert.Sage.Payload
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps, decided over the grid: the two row windows and the two result windows move with the
    point along the rows; every weight and bias stays at block zero. -/
theorem idx_facts : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 1) = 0
    ∧ win1_5.index t (0 : Fin 2) = 0
    ∧ win1_5.index t (1 : Fin 2) = 0
    ∧ win1_6.index t (0 : Fin 1) = 0
    ∧ win1_7.index t (0 : Fin 2) = 0
    ∧ win1_7.index t (1 : Fin 2) = 0
    ∧ win1_8.index t (0 : Fin 1) = 0
    ∧ win1_9.index t (0 : Fin 2) = t.val
    ∧ win1_9.index t (1 : Fin 2) = 0
    ∧ win1_10.index t (0 : Fin 2) = t.val
    ∧ win1_10.index t (1 : Fin 2) = 0 :=
  (by decide +kernel : ∀ t : Fin grid1.N, _)

/-- The second layer of the whole arrays as the call finds them. -/
abbrev Hid (c : Dev nD) : FVec Ideal S100000x128 .f32 :=
  layer (n := 100000) (k := 128) (c := 128) (V c main_v38) (V c main_v25) (V c main_arg5) (V c main_arg6) (V c main_arg7)

/-- The class head of it. -/
abbrev GCls (c : Dev nD) : FVec Ideal S100000x3 .f32 :=
  head (n := 100000) (k := 128) (c := 3) (Hid V c) (V c main_arg8) (V c main_arg9)

/-- The material head of it. -/
abbrev GMat (c : Dev nD) : FVec Ideal S100000x8 .f32 :=
  head (n := 100000) (k := 128) (c := 8) (Hid V c) (V c main_arg10) (V c main_arg11)

/-- One point: the stored block at (p, q) is the head of the layer of the whole arrays at the entry `I` whose row the
    two row blocks are read from and whose column is `q`. -/
theorem point_cls (A H : FVec Ideal S100000x128 .f32) (Wl Wr : FVec Ideal S128x128 .f32) (b : FVec Ideal S128 .f32)
    (Wo : FVec Ideal S128x3 .f32) (bo : FVec Ideal S3 .f32)
    (a h : FVec Ideal S5000x128 .f32) (wl wr : FVec Ideal S128x128 .f32) (bb : FVec Ideal S128 .f32)
    (wo : FVec Ideal S128x3 .f32) (bbo : FVec Ideal S3 .f32)
    (I : S100000x3.Idx) (p : Fin 5000) (q : Fin 3) (hc : (I 1).val = q.val)
    (ha : ∀ k : Fin 128, A (ix2 (rowOf I) k) = a (ix2 p k)) (hh : ∀ k : Fin 128, H (ix2 (rowOf I) k) = h (ix2 p k))
    (hwl : wl = Wl) (hwr : wr = Wr) (hb : bb = b) (hwo : wo = Wo) (hbo : bbo = bo) :
    k1_pay2 (F := Ideal) a h wl wr bb wo bbo (ix2 p q)
      = head (n := 100000) (k := 128) (c := 3) (layer (n := 100000) (k := 128) (c := 128) A H Wl Wr b) Wo bo I := by
  subst hwl hwr hb hwo hbo
  rw [cls_apply]
  refine (head_rows (layer (n := 100000) (k := 128) (c := 128) A H wl wr bb) (layer (n := 5000) (k := 128) (c := 128) a h wl wr bb) wo bbo I (ix2 p q) hc ?_).symm
  intro k
  exact layer_rows A H a h wl wr bb (ix2 (rowOf I) k) (ix2 p k) rfl (fun k' => ha k') (fun k' => hh k')

/-- One point: the stored block at (p, q) is the head of the layer of the whole arrays at the entry `I` whose row the
    two row blocks are read from and whose column is `q`. -/
theorem point_mat (A H : FVec Ideal S100000x128 .f32) (Wl Wr : FVec Ideal S128x128 .f32) (b : FVec Ideal S128 .f32)
    (Wo : FVec Ideal S128x8 .f32) (bo : FVec Ideal S8 .f32)
    (a h : FVec Ideal S5000x128 .f32) (wl wr : FVec Ideal S128x128 .f32) (bb : FVec Ideal S128 .f32)
    (wo : FVec Ideal S128x8 .f32) (bbo : FVec Ideal S8 .f32)
    (I : S100000x8.Idx) (p : Fin 5000) (q : Fin 8) (hc : (I 1).val = q.val)
    (ha : ∀ k : Fin 128, A (ix2 (rowOf I) k) = a (ix2 p k)) (hh : ∀ k : Fin 128, H (ix2 (rowOf I) k) = h (ix2 p k))
    (hwl : wl = Wl) (hwr : wr = Wr) (hb : bb = b) (hwo : wo = Wo) (hbo : bbo = bo) :
    k1_pay3 (F := Ideal) a h wl wr bb wo bbo (ix2 p q)
      = head (n := 100000) (k := 128) (c := 8) (layer (n := 100000) (k := 128) (c := 128) A H Wl Wr b) Wo bo I := by
  subst hwl hwr hb hwo hbo
  rw [mat_apply]
  refine (head_rows (layer (n := 100000) (k := 128) (c := 128) A H wl wr bb) (layer (n := 5000) (k := 128) (c := 128) a h wl wr bb) wo bbo I (ix2 p q) hc ?_).symm
  intro k
  exact layer_rows A H a h wl wr bb (ix2 (rowOf I) k) (ix2 p k) rfl (fun k' => ha k') (fun k' => hh k')

/-- WHAT POINT `t` WRITES BACK through result window 9 is block `t` of the head of the layer of the whole arrays. -/
theorem flushed_eq9 (c : Dev nD) (t : Fin cfg1.N) :
    (dat1 V c).flushed 9 t = ((cfg1.win 9).blk t).view.read (Elt Ideal) (GCls V c) := by
  show (cfg1.win 9).cut (grid1.coords t) ((dat1 V c).after 9 t) = _
  rw [after1_9]
  unfold out1_9
  rw [View.canon_unit_zero hz2]
  simp only [View.ld_unit_zero (S := S5000x128) hz2, View.ld_unit_zero (S := S128x128) hz2, View.ld_unit_zero (S := S128) hz1,
    View.ld_unit_zero (S := S128x3) hz2, View.ld_unit_zero (S := S3) hz1]
  obtain ⟨e0_0, e0_1, e1_0, e1_1, e2_0, e2_1, e3_0, e3_1, e4_0, e5_0, e5_1, e6_0, e7_0, e7_1, e8_0, e9_0, e9_1, e10_0, e10_1⟩ := idx_facts t
  funext j
  have hj0 : (j 0).val < 5000 := (j 0).isLt
  have hj1 : (j 1).val < 3 := (j 1).isLt
  have hj : j = ix2 (⟨(j 0).val, hj0⟩ : Fin 5000) (⟨(j 1).val, hj1⟩ : Fin 3) :=
    funext fun a => match a with | ⟨0, _⟩ => rfl | ⟨1, _⟩ => rfl
  rw [View.read_apply]
  show k1_pay2 (iblk1 V c 0 t) (iblk1 V c 1 t) (iblk1 V c 2 t) (iblk1 V c 3 t) (iblk1 V c 4 t) (iblk1 V c 5 t) (iblk1 V c 6 t) j = _
  rw [hj]
  refine point_cls (V c main_v38) (V c main_v25) (V c main_arg5) (V c main_arg6) (V c main_arg7) (V c main_arg8) (V c main_arg9) _ _ _ _ _ _ _ _ _ _ ?_ ?_ ?_ ?_ ?_ ?_ ?_ ?_
  · show win1_9.index t (1 : Fin 2) * 3 + 1 * (j 1).val = (j 1).val
    rw [e9_1]; omega
  · intro k
    show V c main_v38 _ = V c main_v38 (((cfg1.win 0).blk t).view.emb (ix2 (⟨(j 0).val, hj0⟩ : Fin 5000) k))
    refine congrArg (V c main_v38) (funext fun a => Fin.ext ?_)
    match a with
    | ⟨0, _⟩ => show win1_9.index t (0 : Fin 2) * 5000 + 1 * (j 0).val = win1_0.index t (0 : Fin 2) * 5000 + 1 * (j 0).val; rw [e9_0, e0_0]
    | ⟨1, _⟩ => show k.val = win1_0.index t (1 : Fin 2) * 128 + 1 * k.val; rw [e0_1]; omega
  · intro k
    show V c main_v25 _ = V c main_v25 (((cfg1.win 1).blk t).view.emb (ix2 (⟨(j 0).val, hj0⟩ : Fin 5000) k))
    refine congrArg (V c main_v25) (funext fun a => Fin.ext ?_)
    match a with
    | ⟨0, _⟩ => show win1_9.index t (0 : Fin 2) * 5000 + 1 * (j 0).val = win1_1.index t (0 : Fin 2) * 5000 + 1 * (j 0).val; rw [e9_0, e1_0]
    | ⟨1, _⟩ => show k.val = win1_1.index t (1 : Fin 2) * 128 + 1 * k.val; rw [e1_1]; omega
  · funext y
    show V c main_arg5 (((cfg1.win 2).blk t).view.emb y) = V c main_arg5 y
    refine congrArg (V c main_arg5) (funext fun a => Fin.ext ?_)
    match a with
    | ⟨0, _⟩ => show win1_2.index t (0 : Fin 2) * 128 + 1 * (y 0).val = (y 0).val; rw [e2_0]; omega
    | ⟨1, _⟩ => show win1_2.index t (1 : Fin 2) * 128 + 1 * (y 1).val = (y 1).val; rw [e2_1]; omega
  · funext y
    show V c main_arg6 (((cfg1.win 3).blk t).view.emb y) = V c main_arg6 y
    refine congrArg (V c main_arg6) (funext fun a => Fin.ext ?_)
    match a with
    | ⟨0, _⟩ => show win1_3.index t (0 : Fin 2) * 128 + 1 * (y 0).val = (y 0).val; rw [e3_0]; omega
    | ⟨1, _⟩ => show win1_3.index t (1 : Fin 2) * 128 + 1 * (y 1).val = (y 1).val; rw [e3_1]; omega
  · funext y
    show V c main_arg7 (((cfg1.win 4).blk t).view.emb y) = V c main_arg7 y
    refine congrArg (V c main_arg7) (funext fun a => Fin.ext ?_)
    match a with
    | ⟨0, _⟩ => show win1_4.index t (0 : Fin 1) * 128 + 1 * (y 0).val = (y 0).val; rw [e4_0]; omega
  · funext y
    show V c main_arg8 (((cfg1.win 5).blk t).view.emb y) = V c main_arg8 y
    refine congrArg (V c main_arg8) (funext fun a => Fin.ext ?_)
    match a with
    | ⟨0, _⟩ => show win1_5.index t (0 : Fin 2) * 128 + 1 * (y 0).val = (y 0).val; rw [e5_0]; omega
    | ⟨1, _⟩ => show win1_5.index t (1 : Fin 2) * 3 + 1 * (y 1).val = (y 1).val; rw [e5_1]; omega
  · funext y
    show V c main_arg9 (((cfg1.win 6).blk t).view.emb y) = V c main_arg9 y
    refine congrArg (V c main_arg9) (funext fun a => Fin.ext ?_)
    match a with
    | ⟨0, _⟩ => show win1_6.index t (0 : Fin 1) * 3 + 1 * (y 0).val = (y 0).val; rw [e6_0]; omega

/-- An index of result array 9 is in point `t`'s block iff each coordinate is in the block's range on its axis. -/
theorem mem_blk9 (t : Fin cfg1.N) (i : S100000x3.Idx) :
    i ∈ ((cfg1.win 9).blk t).view.set ↔ ∀ a : Fin 2, win1_9.index t a * S5000x3.size a ≤ (i a).val ∧ (i a).val < win1_9.index t a * S5000x3.size a + S5000x3.size a := by
  show i ∈ ((View.whole main_v39_0).slice (win1_9.rect t)).set ↔ _
  rw [View.set_slice_whole, Rect.mem_set_unit]
  exact Iff.rfl

/-- Row `r` of result array 9 is in the block of point `r / 5000`. -/
theorem cover9 (i : S100000x3.Idx) :
    ∃ t : Fin cfg1.N, (cfg1.win 9).flush t = true ∧ i ∈ ((cfg1.win 9).blk t).view.set := by
  have hi0 : (i 0).val < 100000 := (i 0).isLt
  have hi1 : (i 1).val < 3 := (i 1).isLt
  have hN : grid1.N = 20 := N_1
  have ht : (i 0).val / 5000 < cfg1.N := by show (i 0).val / 5000 < grid1.N; rw [hN]; omega
  obtain ⟨-, -, -, -, -, -, -, -, -, -, -, -, -, -, -, e9_0, e9_1, -, -⟩ := idx_facts ⟨(i 0).val / 5000, ht⟩
  refine ⟨⟨(i 0).val / 5000, ht⟩, flush1_9 _, ?_⟩
  rw [mem_blk9]
  intro a
  match a with
  | ⟨0, _⟩ =>
    show win1_9.index ⟨(i 0).val / 5000, ht⟩ (0 : Fin 2) * 5000 ≤ (i 0).val ∧ (i 0).val < win1_9.index ⟨(i 0).val / 5000, ht⟩ (0 : Fin 2) * 5000 + 5000
    rw [e9_0]; show (i 0).val / 5000 * 5000 ≤ (i 0).val ∧ (i 0).val < (i 0).val / 5000 * 5000 + 5000; omega
  | ⟨1, _⟩ =>
    show win1_9.index ⟨(i 0).val / 5000, ht⟩ (1 : Fin 2) * 3 ≤ (i 1).val ∧ (i 1).val < win1_9.index ⟨(i 0).val / 5000, ht⟩ (1 : Fin 2) * 3 + 3
    rw [e9_1]; omega

/-- RESULT ARRAY 9 after the call. -/
theorem final9 (c : Dev nD) : (dat1 V c).arrAt 9 cfg1.N = GCls V c :=
  (dat1 V c).arrAt_eq_of_cover 9 (GCls V c) (fun t _ => flushed_eq9 V c t) (cover9)

/-- WHAT POINT `t` WRITES BACK through result window 10 is block `t` of the head of the layer of the whole arrays. -/
theorem flushed_eq10 (c : Dev nD) (t : Fin cfg1.N) :
    (dat1 V c).flushed 10 t = ((cfg1.win 10).blk t).view.read (Elt Ideal) (GMat V c) := by
  show (cfg1.win 10).cut (grid1.coords t) ((dat1 V c).after 10 t) = _
  rw [after1_10]
  unfold out1_10
  rw [View.canon_unit_zero hz2]
  simp only [View.ld_unit_zero (S := S5000x128) hz2, View.ld_unit_zero (S := S128x128) hz2, View.ld_unit_zero (S := S128) hz1,
    View.ld_unit_zero (S := S128x8) hz2, View.ld_unit_zero (S := S8) hz1]
  obtain ⟨e0_0, e0_1, e1_0, e1_1, e2_0, e2_1, e3_0, e3_1, e4_0, e5_0, e5_1, e6_0, e7_0, e7_1, e8_0, e9_0, e9_1, e10_0, e10_1⟩ := idx_facts t
  funext j
  have hj0 : (j 0).val < 5000 := (j 0).isLt
  have hj1 : (j 1).val < 8 := (j 1).isLt
  have hj : j = ix2 (⟨(j 0).val, hj0⟩ : Fin 5000) (⟨(j 1).val, hj1⟩ : Fin 8) :=
    funext fun a => match a with | ⟨0, _⟩ => rfl | ⟨1, _⟩ => rfl
  rw [View.read_apply]
  show k1_pay3 (iblk1 V c 0 t) (iblk1 V c 1 t) (iblk1 V c 2 t) (iblk1 V c 3 t) (iblk1 V c 4 t) (iblk1 V c 7 t) (iblk1 V c 8 t) j = _
  rw [hj]
  refine point_mat (V c main_v38) (V c main_v25) (V c main_arg5) (V c main_arg6) (V c main_arg7) (V c main_arg10) (V c main_arg11) _ _ _ _ _ _ _ _ _ _ ?_ ?_ ?_ ?_ ?_ ?_ ?_ ?_
  · show win1_10.index t (1 : Fin 2) * 8 + 1 * (j 1).val = (j 1).val
    rw [e10_1]; omega
  · intro k
    show V c main_v38 _ = V c main_v38 (((cfg1.win 0).blk t).view.emb (ix2 (⟨(j 0).val, hj0⟩ : Fin 5000) k))
    refine congrArg (V c main_v38) (funext fun a => Fin.ext ?_)
    match a with
    | ⟨0, _⟩ => show win1_10.index t (0 : Fin 2) * 5000 + 1 * (j 0).val = win1_0.index t (0 : Fin 2) * 5000 + 1 * (j 0).val; rw [e10_0, e0_0]
    | ⟨1, _⟩ => show k.val = win1_0.index t (1 : Fin 2) * 128 + 1 * k.val; rw [e0_1]; omega
  · intro k
    show V c main_v25 _ = V c main_v25 (((cfg1.win 1).blk t).view.emb (ix2 (⟨(j 0).val, hj0⟩ : Fin 5000) k))
    refine congrArg (V c main_v25) (funext fun a => Fin.ext ?_)
    match a with
    | ⟨0, _⟩ => show win1_10.index t (0 : Fin 2) * 5000 + 1 * (j 0).val = win1_1.index t (0 : Fin 2) * 5000 + 1 * (j 0).val; rw [e10_0, e1_0]
    | ⟨1, _⟩ => show k.val = win1_1.index t (1 : Fin 2) * 128 + 1 * k.val; rw [e1_1]; omega
  · funext y
    show V c main_arg5 (((cfg1.win 2).blk t).view.emb y) = V c main_arg5 y
    refine congrArg (V c main_arg5) (funext fun a => Fin.ext ?_)
    match a with
    | ⟨0, _⟩ => show win1_2.index t (0 : Fin 2) * 128 + 1 * (y 0).val = (y 0).val; rw [e2_0]; omega
    | ⟨1, _⟩ => show win1_2.index t (1 : Fin 2) * 128 + 1 * (y 1).val = (y 1).val; rw [e2_1]; omega
  · funext y
    show V c main_arg6 (((cfg1.win 3).blk t).view.emb y) = V c main_arg6 y
    refine congrArg (V c main_arg6) (funext fun a => Fin.ext ?_)
    match a with
    | ⟨0, _⟩ => show win1_3.index t (0 : Fin 2) * 128 + 1 * (y 0).val = (y 0).val; rw [e3_0]; omega
    | ⟨1, _⟩ => show win1_3.index t (1 : Fin 2) * 128 + 1 * (y 1).val = (y 1).val; rw [e3_1]; omega
  · funext y
    show V c main_arg7 (((cfg1.win 4).blk t).view.emb y) = V c main_arg7 y
    refine congrArg (V c main_arg7) (funext fun a => Fin.ext ?_)
    match a with
    | ⟨0, _⟩ => show win1_4.index t (0 : Fin 1) * 128 + 1 * (y 0).val = (y 0).val; rw [e4_0]; omega
  · funext y
    show V c main_arg10 (((cfg1.win 7).blk t).view.emb y) = V c main_arg10 y
    refine congrArg (V c main_arg10) (funext fun a => Fin.ext ?_)
    match a with
    | ⟨0, _⟩ => show win1_7.index t (0 : Fin 2) * 128 + 1 * (y 0).val = (y 0).val; rw [e7_0]; omega
    | ⟨1, _⟩ => show win1_7.index t (1 : Fin 2) * 8 + 1 * (y 1).val = (y 1).val; rw [e7_1]; omega
  · funext y
    show V c main_arg11 (((cfg1.win 8).blk t).view.emb y) = V c main_arg11 y
    refine congrArg (V c main_arg11) (funext fun a => Fin.ext ?_)
    match a with
    | ⟨0, _⟩ => show win1_8.index t (0 : Fin 1) * 8 + 1 * (y 0).val = (y 0).val; rw [e8_0]; omega

/-- An index of result array 10 is in point `t`'s block iff each coordinate is in the block's range on its axis. -/
theorem mem_blk10 (t : Fin cfg1.N) (i : S100000x8.Idx) :
    i ∈ ((cfg1.win 10).blk t).view.set ↔ ∀ a : Fin 2, win1_10.index t a * S5000x8.size a ≤ (i a).val ∧ (i a).val < win1_10.index t a * S5000x8.size a + S5000x8.size a := by
  show i ∈ ((View.whole main_v39_1).slice (win1_10.rect t)).set ↔ _
  rw [View.set_slice_whole, Rect.mem_set_unit]
  exact Iff.rfl

/-- Row `r` of result array 10 is in the block of point `r / 5000`. -/
theorem cover10 (i : S100000x8.Idx) :
    ∃ t : Fin cfg1.N, (cfg1.win 10).flush t = true ∧ i ∈ ((cfg1.win 10).blk t).view.set := by
  have hi0 : (i 0).val < 100000 := (i 0).isLt
  have hi1 : (i 1).val < 8 := (i 1).isLt
  have hN : grid1.N = 20 := N_1
  have ht : (i 0).val / 5000 < cfg1.N := by show (i 0).val / 5000 < grid1.N; rw [hN]; omega
  obtain ⟨-, -, -, -, -, -, -, -, -, -, -, -, -, -, -, -, -, e10_0, e10_1⟩ := idx_facts ⟨(i 0).val / 5000, ht⟩
  refine ⟨⟨(i 0).val / 5000, ht⟩, flush1_10 _, ?_⟩
  rw [mem_blk10]
  intro a
  match a with
  | ⟨0, _⟩ =>
    show win1_10.index ⟨(i 0).val / 5000, ht⟩ (0 : Fin 2) * 5000 ≤ (i 0).val ∧ (i 0).val < win1_10.index ⟨(i 0).val / 5000, ht⟩ (0 : Fin 2) * 5000 + 5000
    rw [e10_0]; show (i 0).val / 5000 * 5000 ≤ (i 0).val ∧ (i 0).val < (i 0).val / 5000 * 5000 + 5000; omega
  | ⟨1, _⟩ =>
    show win1_10.index ⟨(i 0).val / 5000, ht⟩ (1 : Fin 2) * 8 ≤ (i 1).val ∧ (i 1).val < win1_10.index ⟨(i 0).val / 5000, ht⟩ (1 : Fin 2) * 8 + 8
    rw [e10_1]; omega

/-- RESULT ARRAY 10 after the call. -/
theorem final10 (c : Dev nD) : (dat1 V c).arrAt 10 cfg1.N = GMat V c :=
  (dat1 V c).arrAt_eq_of_cover 10 (GMat V c) (fun t _ => flushed_eq10 V c t) (cover10)

end Cert.Sage.Region1

end
-- ==== Proof.Net.lean ====
/-
  The network both programs compute, as one function of the twelve argument arrays.

  `hidden1` is the first layer on the neighbourhood means of the node features, `hidden2` the second layer
  on the neighbourhood means of `hidden1`, and the two results are linear heads on `hidden2`.
-/
import proofs.«149116_j57655640982186_1_alg».proof.Proof.LibRowsLayer
import proofs.«149116_j57655640982186_1_alg».proof.Proof.HostMean

noncomputable section

namespace Cert.Sage

open Idealize.ShloMosaic Cert.KernelIdeal

/-- The first hidden state: layer one on the mean of the neighbours' features. -/
def hidden1 (x : FVec Ideal S100000x64 .f32) (ei : IVec S2x1600000 32) (Wl1 Wr1 : FVec Ideal S64x128 .f32)
    (b1 : FVec Ideal S128 .f32) : FVec Ideal S100000x128 .f32 :=
  layer (n := 100000) (k := 64) (c := 128) (meanDiv64 x ei) x Wl1 Wr1 b1

/-- The second hidden state: layer two on the mean of the neighbours' first hidden states. -/
def hidden2 (x : FVec Ideal S100000x64 .f32) (ei : IVec S2x1600000 32) (Wl1 Wr1 : FVec Ideal S64x128 .f32)
    (b1 : FVec Ideal S128 .f32) (Wl2 Wr2 : FVec Ideal S128x128 .f32) (b2 : FVec Ideal S128 .f32) :
    FVec Ideal S100000x128 .f32 :=
  layer (n := 100000) (k := 128) (c := 128) (meanDiv128 (hidden1 x ei Wl1 Wr1 b1) ei) (hidden1 x ei Wl1 Wr1 b1) Wl2 Wr2 b2

/-- The class scores. -/
def outCls (x : FVec Ideal S100000x64 .f32) (ei : IVec S2x1600000 32) (Wl1 Wr1 : FVec Ideal S64x128 .f32)
    (b1 : FVec Ideal S128 .f32) (Wl2 Wr2 : FVec Ideal S128x128 .f32) (b2 : FVec Ideal S128 .f32)
    (Wh : FVec Ideal S128x3 .f32) (bh : FVec Ideal S3 .f32) : FVec Ideal S100000x3 .f32 :=
  head (n := 100000) (k := 128) (c := 3) (hidden2 x ei Wl1 Wr1 b1 Wl2 Wr2 b2) Wh bh

/-- The material scores. -/
def outMat (x : FVec Ideal S100000x64 .f32) (ei : IVec S2x1600000 32) (Wl1 Wr1 : FVec Ideal S64x128 .f32)
    (b1 : FVec Ideal S128 .f32) (Wl2 Wr2 : FVec Ideal S128x128 .f32) (b2 : FVec Ideal S128 .f32)
    (Wm : FVec Ideal S128x8 .f32) (bm : FVec Ideal S8 .f32) : FVec Ideal S100000x8 .f32 :=
  head (n := 100000) (k := 128) (c := 8) (hidden2 x ei Wl1 Wr1 b1 Wl2 Wr2 b2) Wm bm

end Cert.Sage

end
-- ==== Proof.KernelValue.lean ====
/-
  The two result arrays of the two-call program, as the network of the argument arrays.

  The memory after the second call holds, at each result array, what that call's write-backs leave: a head of the
  second layer of the arrays it found.  Those are the host's means of the first call's result, that result itself,
  and argument arrays; the first call's result is the first layer of the arrays IT found: the host's means of the node
  features, the node features, and argument arrays.  The host takes its means by the reciprocal of the clipped edge
  count, which is the mean by the quotient: the results are `outCls` and `outMat` of the arguments.
-/
import proofs.«149116_j57655640982186_1_alg».proof.Proof.KernelRun
import proofs.«149116_j57655640982186_1_alg».proof.Proof.HostValue
import proofs.«149116_j57655640982186_1_alg».proof.Proof.Region0
import proofs.«149116_j57655640982186_1_alg».proof.Proof.Region1
import proofs.«149116_j57655640982186_1_alg».proof.Proof.Net

set_option maxRecDepth 16384

noncomputable section

namespace Cert.Sage.KernelValue

open Cert.KernelIdeal Cert.KernelIdeal.Gen Cert.Sage Cert.Sage.HostValue
open Idealize.ShloMosaic Idealize.ShloMosaic.TcCoe Idealize.SL.Sem

variable (m : (ℓ : Loc nD τ sig) → Buf (Elt Ideal) ℓ) (ρ : Dev nD → PrngReg)

/-- The first call's result array: the first hidden state. -/
theorem hidden1_eq (c : Dev nD) :
    (dat0 (V1 m ρ) c).arrAt 5 cfg0.N = hidden1 (m ((c : Thread nD τ).loc main_arg0)) (m ((c : Thread nD τ).loc main_arg1)) (m ((c : Thread nD τ).loc main_arg2)) (m ((c : Thread nD τ).loc main_arg3)) (m ((c : Thread nD τ).loc main_arg4)) := by
  rw [Region0.final (V1 m ρ) c]
  unfold Region0.G
  rw [V1_v24 m ρ c, V1_arg0 m ρ c, V1_arg2 m ρ c, V1_arg3 m ρ c, V1_arg4 m ρ c, meanMul64_eq]
  rfl

/-- The second layer of what the second call finds: the second hidden state. -/
theorem hidden2_eq (c : Dev nD) :
    Region1.Hid (V3 m ρ) c = hidden2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  unfold Region1.Hid
  rw [V3_v38 m ρ c, V3_v25 m ρ c, V3_arg5 m ρ c, V3_arg6 m ρ c, V3_arg7 m ρ c, hidden1_eq m ρ c, meanMul128_eq]
  rfl

/-- The first result array after the run. -/
theorem out0 (c : Dev nD) :
    W4 m ρ c (Proc.devRef .tc main_v39_0) = outCls (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W4_arr m ρ c 9).trans ?_
  rw [Region1.final9 (V3 m ρ) c]
  unfold Region1.GCls
  rw [hidden2_eq m ρ c, V3_arg8 m ρ c, V3_arg9 m ρ c]
  rfl

/-- The second result array after the run. -/
theorem out1 (c : Dev nD) :
    W4 m ρ c (Proc.devRef .tc main_v39_1) = outMat (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg10)) (m ((c : Thread nD τ).loc main_arg11)) := by
  refine (W4_arr m ρ c 10).trans ?_
  rw [Region1.final10 (V3 m ρ) c]
  unfold Region1.GMat
  rw [hidden2_eq m ρ c, V3_arg10 m ρ c, V3_arg11 m ρ c]
  rfl

/-- THE RUN, READ: every weakly fair execution terminates, nothing faulting, with the two result arrays at the
    network of the arguments and the arguments as launched. -/
theorem run : θ_run defs (onTc (τ := τ) (main (F := Ideal))) ⟨m, fun _ => 0, ρ⟩ (fun r => ∀ c : Dev nD,
      r.2.mem ((c.tc : Thread nD τ).loc main_v39_0) = outCls (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      ∧ r.2.mem ((c.tc : Thread nD τ).loc main_v39_1) = outMat (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg10)) (m ((c : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c).1.trans (out0 m ρ c), (h c).2.1.trans (out1 m ρ c), (h c).2.2⟩)
    (KernelRun.run_outs m ρ)

end Cert.Sage.KernelValue

end
-- ==== Proof.RefValue.lean ====
/-
  The reference program's two results, on the extended reals, are the network of `Net`.

  The reference computes, operation by operation: the neighbourhood mean of the node features as a quotient
  (the sums of the sources' rows at the destinations, divided by the clipped arrival counts); a dense layer of the
  mean and of the features, clipped below at zero; the same mean and layer again on the first hidden state; and two
  linear heads on the second hidden state.  Each stage is identified with the corresponding named function:
  the two means are the same composition of host operations as `meanDiv64` / `meanDiv128`, and each dense stage,
  read at an index, is the sum over the contracted coordinate that `layer` / `head` state.
-/
import proofs.«149116_j57655640982186_1_alg».proof.Proof.Gen.ReferenceIdeal.Read
import proofs.«149116_j57655640982186_1_alg».proof.Proof.Net

noncomputable section

namespace Cert.Sage.RefValue

open Cert.ReferenceIdeal Cert.ReferenceIdeal.Gen Idealize.ShloMosaic Idealize.ShloMosaic.TcCoe Idealize.SL.Sem Idealize.ShloMosaic.StableHlo
open Cert.ReferenceIdeal.Read
open scoped BigOperators

/-! ## The means: one composition of host operations -/

/-- The reference's first mean is the quotient mean of the node features: the same composition of host operations. -/
theorem mean64 (x0 : (⟨S100000x64, .f32⟩ : BufTy).Contents (Elt Ideal)) (x1 : (⟨S2x1600000, .i32⟩ : BufTy).Contents (Elt Ideal)) :
    val_main_v22 (F := Ideal) x0 x1 = Cert.Sage.meanDiv64 x0 x1 := by
  unfold val_main_v22 val_main_v21 val_main_v20 val_main_v19 val_main_v18 val_main_v17 val_main_v16 val_main_v15 val_main_v14
    val_main_v13 val_main_v12 val_main_v11 val_main_v10 val_main_v9 val_main_v8 val_main_v7 val_main_v6 val_main_v5 val_main_v4
    val_main_v3 val_main_v2 val_main_v1 val_main_v0 val_main_c val_main_c_0 val_main_cst val_main_cst_1 val_main_cst_2 val_main_cst_3
  unfold Cert.Sage.meanDiv64 Cert.Sage.sumTo64 Cert.Sage.degClip Cert.Sage.deg Cert.Sage.dstIdx Cert.Sage.srcIdx
    Cert.Sage.dstRow Cert.Sage.srcRow
  rfl

/-- The reference's second mean is the quotient mean of the first hidden state: the same composition of host
    operations, the hidden state kept as one array. -/
theorem mean128 (x0 : (⟨S100000x64, .f32⟩ : BufTy).Contents (Elt Ideal)) (x1 : (⟨S2x1600000, .i32⟩ : BufTy).Contents (Elt Ideal))
    (x2 x3 : (⟨S64x128, .f32⟩ : BufTy).Contents (Elt Ideal)) (x4 : (⟨S128, .f32⟩ : BufTy).Contents (Elt Ideal)) :
    val_main_v48 (F := Ideal) x0 x1 x2 x3 x4 = Cert.Sage.meanDiv128 (val_main_v29 (F := Ideal) x0 x1 x2 x3 x4) x1 := by
  unfold val_main_v48 val_main_v47 val_main_v46 val_main_v45 val_main_v44 val_main_v43 val_main_v42 val_main_v41 val_main_v40
    val_main_v39 val_main_v38 val_main_v37 val_main_v36 val_main_v35 val_main_v34 val_main_v33 val_main_v32 val_main_v31 val_main_v30
    val_main_v3 val_main_v2 val_main_v1 val_main_v0 val_main_c_4 val_main_c_5 val_main_cst_6 val_main_cst_7 val_main_cst_8 val_main_cst_9
  generalize val_main_v29 (F := Ideal) x0 x1 x2 x3 x4 = h
  unfold Cert.Sage.meanDiv128 Cert.Sage.sumTo128 Cert.Sage.degClip Cert.Sage.deg Cert.Sage.dstIdx Cert.Sage.srcIdx
    Cert.Sage.dstRow Cert.Sage.srcRow
  rfl

/-! ## Reading a dense stage at an index -/

section Reads

open Idealize.ShloMosaic.ValueIdx

variable {n k c : Nat}

/-- A rank-2 index is determined by its two coordinates. -/
theorem ix2_of_coords {n0 n1 : Nat} (j : (⟨2, ![n0, n1]⟩ : Shape).Idx) (a : Fin n0) (b : Fin n1)
    (h0 : (j 0).val = a.val) (h1 : (j 1).val = b.val) : j = ix2 a b := by
  funext d
  match d with
  | ⟨0, _⟩ => exact Fin.ext h0
  | ⟨1, _⟩ => exact Fin.ext h1

/-- A rank-1 index is determined by its coordinate. -/
theorem ix1_of_coord {n0 : Nat} (j : (⟨1, ![n0]⟩ : Shape).Idx) (a : Fin n0) (h0 : (j 0).val = a.val) : j = ix1 a := by
  funext d
  match d with
  | ⟨0, _⟩ => exact Fin.ext h0

/-- A sum over the contracted coordinate `q` of the left array at (row of `i`, `q`) times the right array at
    (`q`, column of `i`) is entry `i` of rows against columns. -/
theorem sum_eq_rowsMul (a : Arr2 n k) (W : Arr2 k c) (i : (⟨2, ![n, c]⟩ : Shape).Idx)
    (li : Fin k → (⟨2, ![n, k]⟩ : Shape).Idx) (ri : Fin k → (⟨2, ![k, c]⟩ : Shape).Idx)
    (hl0 : ∀ q, ((li q) 0).val = (i 0).val) (hl1 : ∀ q, ((li q) 1).val = q.val)
    (hr0 : ∀ q, ((ri q) 0).val = q.val) (hr1 : ∀ q, ((ri q) 1).val = (i 1).val) :
    ∑ q : Fin k, a (li q) * W (ri q) = rowsMul a W i := by
  unfold rowsMul
  refine Finset.sum_congr rfl fun q _ => ?_
  rw [ix2_of_coords (li q) (rowOf i) q (hl0 q) (hl1 q), ix2_of_coords (ri q) q (colOf i) (hr0 q) (hr1 q)]

/-- Two such sums, a bias entry at the column of `i`, and the clip at zero: entry `i` of a layer. -/
theorem reads_eq_layer (a x : Arr2 n k) (Wl Wr : Arr2 k c) (b : Arr1 c) (i : (⟨2, ![n, c]⟩ : Shape).Idx)
    (la lx : Fin k → (⟨2, ![n, k]⟩ : Shape).Idx) (ra rx : Fin k → (⟨2, ![k, c]⟩ : Shape).Idx)
    (bi : (⟨1, ![c]⟩ : Shape).Idx)
    (hla0 : ∀ q, ((la q) 0).val = (i 0).val) (hla1 : ∀ q, ((la q) 1).val = q.val)
    (hra0 : ∀ q, ((ra q) 0).val = q.val) (hra1 : ∀ q, ((ra q) 1).val = (i 1).val)
    (hlx0 : ∀ q, ((lx q) 0).val = (i 0).val) (hlx1 : ∀ q, ((lx q) 1).val = q.val)
    (hrx0 : ∀ q, ((rx q) 0).val = q.val) (hrx1 : ∀ q, ((rx q) 1).val = (i 1).val)
    (hb : (bi 0).val = (i 1).val) :
    max ((∑ q : Fin k, a (la q) * Wl (ra q)) + (∑ q : Fin k, x (lx q) * Wr (rx q)) + b bi) (Ideal.ofBits .f32 0x00000000#32)
      = layer a x Wl Wr b i := by
  unfold layer zeroF
  rw [sum_eq_rowsMul a Wl i la ra hla0 hla1 hra0 hra1, sum_eq_rowsMul x Wr i lx rx hlx0 hlx1 hrx0 hrx1,
    ix1_of_coord bi (colOf i) hb]

/-- One such sum and a bias entry at the column of `i`: entry `i` of a linear head. -/
theorem reads_eq_head (h : Arr2 n k) (W : Arr2 k c) (b : Arr1 c) (i : (⟨2, ![n, c]⟩ : Shape).Idx)
    (lh : Fin k → (⟨2, ![n, k]⟩ : Shape).Idx) (rh : Fin k → (⟨2, ![k, c]⟩ : Shape).Idx)
    (bi : (⟨1, ![c]⟩ : Shape).Idx)
    (hl0 : ∀ q, ((lh q) 0).val = (i 0).val) (hl1 : ∀ q, ((lh q) 1).val = q.val)
    (hr0 : ∀ q, ((rh q) 0).val = q.val) (hr1 : ∀ q, ((rh q) 1).val = (i 1).val)
    (hb : (bi 0).val = (i 1).val) :
    (∑ q : Fin k, h (lh q) * W (rh q)) + b bi = head h W b i := by
  unfold head
  rw [sum_eq_rowsMul h W i lh rh hl0 hl1 hr0 hr1, ix1_of_coord bi (colOf i) hb]

end Reads

/-! ## The stages -/

/-- The first hidden state: the layer of the first mean and the node features. -/
theorem hid1 (x0 : (⟨S100000x64, .f32⟩ : BufTy).Contents (Elt Ideal)) (x1 : (⟨S2x1600000, .i32⟩ : BufTy).Contents (Elt Ideal))
    (x2 x3 : (⟨S64x128, .f32⟩ : BufTy).Contents (Elt Ideal)) (x4 : (⟨S128, .f32⟩ : BufTy).Contents (Elt Ideal)) :
    val_main_v29 (F := Ideal) x0 x1 x2 x3 x4
      = Cert.Sage.layer (n := 100000) (k := 64) (c := 128) (val_main_v22 (F := Ideal) x0 x1) x0 x2 x3 x4 := by
  funext i
  rw [val_main_v29_apply, val_main_v28_apply, val_main_v25_apply, val_main_v23_apply, val_main_v24_apply,
    val_main_v27_apply, val_main_v26_apply, val_main_call0_v0_apply, val_main_call0_cst_apply]
  generalize val_main_v22 (F := Ideal) x0 x1 = a
  exact reads_eq_layer (n := 100000) (k := 64) (c := 128) a x0 x2 x3 x4 i (lidx_main_v23 i) (lidx_main_v24 i) (ridx_main_v23 i) (ridx_main_v24 i)
    (idx_main_v26 (idx_main_v27 i)) (fun _ => rfl) (fun _ => rfl) (fun _ => rfl) (fun _ => rfl)
    (fun _ => rfl) (fun _ => rfl) (fun _ => rfl) (fun _ => rfl) rfl

/-- The second hidden state: the layer of the second mean and the first hidden state. -/
theorem hid2 (x0 : (⟨S100000x64, .f32⟩ : BufTy).Contents (Elt Ideal)) (x1 : (⟨S2x1600000, .i32⟩ : BufTy).Contents (Elt Ideal))
    (x2 x3 : (⟨S64x128, .f32⟩ : BufTy).Contents (Elt Ideal)) (x4 : (⟨S128, .f32⟩ : BufTy).Contents (Elt Ideal))
    (x5 x6 : (⟨S128x128, .f32⟩ : BufTy).Contents (Elt Ideal)) (x7 : (⟨S128, .f32⟩ : BufTy).Contents (Elt Ideal)) :
    val_main_v55 (F := Ideal) x0 x1 x2 x3 x4 x5 x6 x7
      = Cert.Sage.layer (n := 100000) (k := 128) (c := 128) (val_main_v48 (F := Ideal) x0 x1 x2 x3 x4)
          (val_main_v29 (F := Ideal) x0 x1 x2 x3 x4) x5 x6 x7 := by
  funext i
  rw [val_main_v55_apply, val_main_v54_apply, val_main_v51_apply, val_main_v49_apply, val_main_v50_apply,
    val_main_v53_apply, val_main_v52_apply, val_main_call1_v0_apply, val_main_call1_cst_apply]
  generalize val_main_v48 (F := Ideal) x0 x1 x2 x3 x4 = a
  generalize val_main_v29 (F := Ideal) x0 x1 x2 x3 x4 = h
  exact reads_eq_layer (n := 100000) (k := 128) (c := 128) a h x5 x6 x7 i (lidx_main_v49 i) (lidx_main_v50 i) (ridx_main_v49 i) (ridx_main_v50 i)
    (idx_main_v52 (idx_main_v53 i)) (fun _ => rfl) (fun _ => rfl) (fun _ => rfl) (fun _ => rfl)
    (fun _ => rfl) (fun _ => rfl) (fun _ => rfl) (fun _ => rfl) rfl

/-- The class scores: a linear head on the second hidden state. -/
theorem cls (x0 : (⟨S100000x64, .f32⟩ : BufTy).Contents (Elt Ideal)) (x1 : (⟨S2x1600000, .i32⟩ : BufTy).Contents (Elt Ideal))
    (x2 x3 : (⟨S64x128, .f32⟩ : BufTy).Contents (Elt Ideal)) (x4 : (⟨S128, .f32⟩ : BufTy).Contents (Elt Ideal))
    (x5 x6 : (⟨S128x128, .f32⟩ : BufTy).Contents (Elt Ideal)) (x7 : (⟨S128, .f32⟩ : BufTy).Contents (Elt Ideal))
    (x8 : (⟨S128x3, .f32⟩ : BufTy).Contents (Elt Ideal)) (x9 : (⟨S3, .f32⟩ : BufTy).Contents (Elt Ideal)) :
    val_main_v59 (F := Ideal) x0 x1 x2 x3 x4 x5 x6 x7 x8 x9
      = Cert.Sage.head (n := 100000) (k := 128) (c := 3) (val_main_v55 (F := Ideal) x0 x1 x2 x3 x4 x5 x6 x7) x8 x9 := by
  funext i
  rw [val_main_v59_apply, val_main_v56_apply, val_main_v58_apply, val_main_v57_apply]
  generalize val_main_v55 (F := Ideal) x0 x1 x2 x3 x4 x5 x6 x7 = h
  exact reads_eq_head (n := 100000) (k := 128) (c := 3) h x8 x9 i (lidx_main_v56 i) (ridx_main_v56 i) (idx_main_v57 (idx_main_v58 i))
    (fun _ => rfl) (fun _ => rfl) (fun _ => rfl) (fun _ => rfl) rfl

/-- The material scores: a linear head on the second hidden state. -/
theorem mat (x0 : (⟨S100000x64, .f32⟩ : BufTy).Contents (Elt Ideal)) (x1 : (⟨S2x1600000, .i32⟩ : BufTy).Contents (Elt Ideal))
    (x2 x3 : (⟨S64x128, .f32⟩ : BufTy).Contents (Elt Ideal)) (x4 : (⟨S128, .f32⟩ : BufTy).Contents (Elt Ideal))
    (x5 x6 : (⟨S128x128, .f32⟩ : BufTy).Contents (Elt Ideal)) (x7 : (⟨S128, .f32⟩ : BufTy).Contents (Elt Ideal))
    (x10 : (⟨S128x8, .f32⟩ : BufTy).Contents (Elt Ideal)) (x11 : (⟨S8, .f32⟩ : BufTy).Contents (Elt Ideal)) :
    val_main_v63 (F := Ideal) x0 x1 x2 x3 x4 x5 x6 x7 x10 x11
      = Cert.Sage.head (n := 100000) (k := 128) (c := 8) (val_main_v55 (F := Ideal) x0 x1 x2 x3 x4 x5 x6 x7) x10 x11 := by
  funext i
  rw [val_main_v63_apply, val_main_v60_apply, val_main_v62_apply, val_main_v61_apply]
  generalize val_main_v55 (F := Ideal) x0 x1 x2 x3 x4 x5 x6 x7 = h
  exact reads_eq_head (n := 100000) (k := 128) (c := 8) h x10 x11 i (lidx_main_v60 i) (ridx_main_v60 i) (idx_main_v61 (idx_main_v62 i))
    (fun _ => rfl) (fun _ => rfl) (fun _ => rfl) (fun _ => rfl) rfl

/-- The second hidden state is `hidden2` of the first eight arguments. -/
theorem hid2_eq (x0 : (⟨S100000x64, .f32⟩ : BufTy).Contents (Elt Ideal)) (x1 : (⟨S2x1600000, .i32⟩ : BufTy).Contents (Elt Ideal))
    (x2 x3 : (⟨S64x128, .f32⟩ : BufTy).Contents (Elt Ideal)) (x4 : (⟨S128, .f32⟩ : BufTy).Contents (Elt Ideal))
    (x5 x6 : (⟨S128x128, .f32⟩ : BufTy).Contents (Elt Ideal)) (x7 : (⟨S128, .f32⟩ : BufTy).Contents (Elt Ideal)) :
    val_main_v55 (F := Ideal) x0 x1 x2 x3 x4 x5 x6 x7 = Cert.Sage.hidden2 x0 x1 x2 x3 x4 x5 x6 x7 := by
  rw [hid2, mean128, hid1, mean64]
  rfl

/-! ## The two results -/

/-- The reference's first result is the class scores of the network. -/
theorem res0 (m : (ℓ : Loc nD τ sig) → Buf (Elt Ideal) ℓ) (c : Dev nD) :
    Cert.ReferenceIdeal.Value.res_main_v59 (F := Ideal) m c
      = Cert.Sage.outCls (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9)) := by
  rw [val_main_v59_eq, cls, hid2_eq]
  rfl

/-- The reference's second result is the material scores of the network. -/
theorem res1 (m : (ℓ : Loc nD τ sig) → Buf (Elt Ideal) ℓ) (c : Dev nD) :
    Cert.ReferenceIdeal.Value.res_main_v63 (F := Ideal) m c
      = Cert.Sage.outMat (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg10)) (m ((c.tc : Thread nD τ).loc main_arg11)) := by
  rw [val_main_v63_eq, mat, hid2_eq]
  rfl

end Cert.Sage.RefValue

end
-- ==== Proof.lean ====
/-
  The certificate of a two-layer mean-aggregating graph network: a kernel program of two pallas_calls among
  host operations against its plain reference, equal on the extended reals.

  Both programs gather the source row of every edge and add it onto the destination row, divide by the clipped
  edge count, pass the result and the node rows through a dense layer with a bias and a clip at zero, do the same
  once more with the hidden rows, and finish with two linear heads.  They differ in two ways.  The kernel program
  computes each layer in a pallas_call over blocks of 5000 rows, with the operands passed through a narrower float
  format on the way into the matrix unit: on the extended reals a change of format is the identity, a row of a
  layer depends on the same row of its operands only, and the blocks cover the arrays, so each call leaves the
  layer of the whole arrays (`Region0`, `Region1`).  And the kernel program multiplies by the reciprocal of the
  clipped count where the reference divides by it: the count is a finite sum of ones, a real number at least one
  after clipping, and for a positive real `d` and ANY extended real `s`, `s · (1/d) = s / d` (`HostMean`) — no
  finiteness of the features is needed.  So both programs end at `outCls` and `outMat` of the arguments (`Net`).
  The frames are the generated ones; no rewrite was applied to the kernel, so `preserves` is trivial.
-/
import proofs.«149116_j57655640982186_1_alg».proof.Defs
import proofs.«149116_j57655640982186_1_alg».proof.Proof.Gen.Kernel
import proofs.«149116_j57655640982186_1_alg».proof.Proof.Gen.Kernel.Skeleton
import proofs.«149116_j57655640982186_1_alg».proof.Proof.Gen.Kernel.Launch
import proofs.«149116_j57655640982186_1_alg».proof.Proof.Gen.Kernel.Points
import proofs.«149116_j57655640982186_1_alg».proof.Proof.Gen.Kernel.Frame
import proofs.«149116_j57655640982186_1_alg».proof.Proof.Gen.KernelIdeal
import proofs.«149116_j57655640982186_1_alg».proof.Proof.Gen.KernelIdeal.Skeleton
import proofs.«149116_j57655640982186_1_alg».proof.Proof.Gen.KernelIdeal.Launch
import proofs.«149116_j57655640982186_1_alg».proof.Proof.Gen.KernelIdeal.Points
import proofs.«149116_j57655640982186_1_alg».proof.Proof.Gen.KernelIdeal.Frame
import proofs.«149116_j57655640982186_1_alg».proof.Proof.Gen.ReferenceIdeal
import proofs.«149116_j57655640982186_1_alg».proof.Proof.Gen.Pre_finite_inputs
import proofs.«149116_j57655640982186_1_alg».proof.Proof.Gen.ReferenceIdeal.Read
import proofs.«149116_j57655640982186_1_alg».proof.Proof.KernelValue
import proofs.«149116_j57655640982186_1_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- No rewrite was applied. -/
theorem preserves : Cert.preserves_Kernel_KernelIdeal := trivial

/-- Both programs end with their result arrays at the network of the arguments, which agree. -/
theorem algebraic : Cert.algebraic_KernelIdeal_ReferenceIdeal := by
  intro m ρ m' ρ' _ hagree
  refine ⟨fun c => Cert.Sage.outCls (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    fun c => Cert.Sage.outMat (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    Cert.Sage.KernelValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9, a10, a11⟩ := hagree c
    rw [Cert.Sage.RefValue.res0 m' c, a0, a1, a2, a3, a4, a5, a6, a7, a8, a9]
  · obtain ⟨a0, a1, a2, a3, a4, a5, a6, a7, a8, a9, a10, a11⟩ := hagree c
    rw [Cert.Sage.RefValue.res1 m' c, a0, a1, a2, a3, a4, a5, a6, a7, a10, a11]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
